-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S3072 .f32) (main_arg8 : FVec F S1024x1024 .f32) (main_arg9 : FVec F S1024 .f32) (main_arg10 : FVec F S1024 .f32) (main_arg11 : FVec F S1024 .f32) (main_arg12 : FVec F S1024 .f32) (main_arg13 : FVec F S1024 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S3072x1024 .f32) (main_arg7 : FVec F S3072 .f32) (main_arg8 : FVec F S1024x1024 .f32) (main_arg9 : FVec F S1024 .f32) (main_arg10 : FVec F S1024 .f32) (main_arg11 : FVec F S1024 .f32) (main_arg12 : FVec F S1024 .f32) (main_arg13 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S3072x1024 .f32 := Host.absf main_arg6
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S3072x1024 .f32) (main_arg3 : FVec F S3072 .f32) (main_arg4 : FVec F S1024x1024 .f32) (main_arg5 : FVec F S1024 .f32) (main_arg6 : FVec F S3072x1024 .f32) (main_arg7 : FVec F S3072 .f32) (main_arg8 : FVec F S1024x1024 .f32) (main_arg9 : FVec F S1024 .f32) (main_arg10 : FVec F S1024 .f32) (main_arg11 : FVec F S1024 .f32) (main_arg12 : FVec F S1024 .f32) (main_arg13 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 36
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S3072x1024, .f32⟩
  | .hbm, ⟨7, _⟩ => ⟨S3072, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S3072x1024_S1024x1024_2048_0 : S3072x1024.Slices ![2048, 0] S1024x1024
  slices_S3072_S1024_2048 : S3072.Slices ![2048] S1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .f32 = 32 ∨ (Rect.block (s := S16384x1024) S512x1024.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S16384x1024.size a
  hwx1_1 : ∀ i : grid1.Coords, EltTy.bits .f32 = 32 ∨ (Rect.block (s := S16384x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1024.size a ≤ S16384x1024.size a
  hwx1_8 : ∀ i : grid1.Coords, EltTy.bits .f32 = 32 ∨ (Rect.block (s := S16384x1024) S512x1024.size (cc1_transform_8 i) (hinb1_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S512x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1024 : Shape := ⟨2, ![1, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S16384 : Shape := ⟨1, ![16384]⟩
abbrev S16384x1 : Shape := ⟨2, ![16384, 1]⟩

abbrev nBuf : Space → Nat
  | .hbm => 176
  | .vmem => 0
  | .smem => 0
  | _ => 0

abbrev hbmTy0_0 (i : Nat) : BufTy := match i % 128 with
  | 0 => ⟨S16384x1024, .f32⟩
  | 1 => ⟨S16384x1024, .f32⟩
  | 2 => ⟨S3072x1024, .f32⟩
  | 3 => ⟨S3072, .f32⟩
  | 4 => ⟨S1024x1024, .f32⟩
  | 5 => ⟨S1024, .f32⟩
  | 6 => ⟨S3072x1024, .f32⟩
  | 7 => ⟨S3072, .f32⟩
  | 8 => ⟨S1024x1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024x1024, .f32⟩
  | 15 => ⟨S1024x1024, .f32⟩
  | 16 => ⟨S1024x1024, .f32⟩
  | 17 => ⟨S1024, .f32⟩
  | 18 => ⟨S1024, .f32⟩
  | 19 => ⟨S1024, .f32⟩
  | 20 => ⟨S1024x1024, .f32⟩
  | 21 => ⟨S16384x1024, .f32⟩
  | 22 => ⟨S1x1024, .f32⟩
  | 23 => ⟨S16384x1024, .f32⟩
  | 24 => ⟨S16384x1024, .f32⟩
  | 25 => ⟨S16384x16x64, .f32⟩
  | 26 => ⟨S1024x1024, .f32⟩
  | 27 => ⟨S16384x1024, .f32⟩
  | 28 => ⟨S1x1024, .f32⟩
  | 29 => ⟨S16384x1024, .f32⟩
  | 30 => ⟨S16384x1024, .f32⟩
  | 31 => ⟨S16384x16x64, .f32⟩
  | 32 => ⟨S1024x1024, .f32⟩
  | 33 => ⟨S16384x1024, .f32⟩
  | 34 => ⟨S1x1024, .f32⟩
  | 35 => ⟨S16384x1024, .f32⟩
  | 36 => ⟨S16384x1024, .f32⟩
  | 37 => ⟨S16384x16x64, .f32⟩
  | 38 => ⟨S16384x16x64, .f32⟩
  | 39 => ⟨S_, .f32⟩
  | 40 => ⟨S16384x16, .f32⟩
  | 41 => ⟨S16384x16x1, .f32⟩
  | 42 => ⟨S_, .f32⟩
  | 43 => ⟨S16384x16x1, .f32⟩
  | 44 => ⟨S16384x16x1, .f32⟩
  | 45 => ⟨S_, .f32⟩
  | 46 => ⟨S16384x16, .f32⟩
  | 47 => ⟨S_, .f32⟩
  | 48 => ⟨S16384x16, .f32⟩
  | 49 => ⟨S16384x16, .f32⟩
  | 50 => ⟨S16384x16x1, .f32⟩
  | 51 => ⟨S16384x16x1, .f32⟩
  | 52 => ⟨S16384x16x1, .f32⟩
  | 53 => ⟨S_, .f32⟩
  | 54 => ⟨S16384x16, .f32⟩
  | 55 => ⟨S16384x16x1, .f32⟩
  | 56 => ⟨S16384x16x1, .f32⟩
  | 57 => ⟨S16384x16x64, .f32⟩
  | 58 => ⟨S16384x16x64, .f32⟩
  | 59 => ⟨S16384x1024, .f32⟩
  | 60 => ⟨S1024x1024, .f32⟩
  | 61 => ⟨S16384x1024, .f32⟩
  | 62 => ⟨S1x1024, .f32⟩
  | 63 => ⟨S16384x1024, .f32⟩
  | 64 => ⟨S16384x1024, .f32⟩
  | 65 => ⟨S16384x1024, .f32⟩
  | 66 => ⟨S_, .f32⟩
  | 67 => ⟨S16384, .f32⟩
  | 68 => ⟨S16384x1, .f32⟩
  | 69 => ⟨S_, .f32⟩
  | 70 => ⟨S16384x1, .f32⟩
  | 71 => ⟨S16384x1, .f32⟩
  | 72 => ⟨S16384x1024, .f32⟩
  | 73 => ⟨S16384x1024, .f32⟩
  | 74 => ⟨S16384x1024, .f32⟩
  | 75 => ⟨S_, .f32⟩
  | 76 => ⟨S16384, .f32⟩
  | 77 => ⟨S16384x1, .f32⟩
  | 78 => ⟨S_, .f32⟩
  | 79 => ⟨S16384x1, .f32⟩
  | 80 => ⟨S16384x1, .f32⟩
  | 81 => ⟨S16384x1024, .f32⟩
  | 82 => ⟨S16384x1024, .f32⟩
  | 83 => ⟨S_, .f32⟩
  | 84 => ⟨S16384x1, .f32⟩
  | 85 => ⟨S16384x1, .f32⟩
  | 86 => ⟨S16384x1, .f32⟩
  | 87 => ⟨S16384x1024, .f32⟩
  | 88 => ⟨S16384x1024, .f32⟩
  | 89 => ⟨S1x1024, .f32⟩
  | 90 => ⟨S16384x1024, .f32⟩
  | 91 => ⟨S16384x1024, .f32⟩
  | 92 => ⟨S1x1024, .f32⟩
  | 93 => ⟨S16384x1024, .f32⟩
  | 94 => ⟨S16384x1024, .f32⟩
  | 95 => ⟨S1024x1024, .f32⟩
  | 96 => ⟨S1024x1024, .f32⟩
  | 97 => ⟨S1024x1024, .f32⟩
  | 98 => ⟨S1024, .f32⟩
  | 99 => ⟨S1024, .f32⟩
  | 100 => ⟨S1024, .f32⟩
  | 101 => ⟨S1024x1024, .f32⟩
  | 102 => ⟨S16384x1024, .f32⟩
  | 103 => ⟨S1x1024, .f32⟩
  | 104 => ⟨S16384x1024, .f32⟩
  | 105 => ⟨S16384x1024, .f32⟩
  | 106 => ⟨S16384x16x64, .f32⟩
  | 107 => ⟨S1024x1024, .f32⟩
  | 108 => ⟨S16384x1024, .f32⟩
  | 109 => ⟨S1x1024, .f32⟩
  | 110 => ⟨S16384x1024, .f32⟩
  | 111 => ⟨S16384x1024, .f32⟩
  | 112 => ⟨S16384x16x64, .f32⟩
  | 113 => ⟨S1024x1024, .f32⟩
  | 114 => ⟨S16384x1024, .f32⟩
  | 115 => ⟨S1x1024, .f32⟩
  | 116 => ⟨S16384x1024, .f32⟩
  | 117 => ⟨S16384x1024, .f32⟩
  | 118 => ⟨S16384x16x64, .f32⟩
  | 119 => ⟨S16384x16x64, .f32⟩
  | 120 => ⟨S_, .f32⟩
  | 121 => ⟨S16384x16, .f32⟩
  | 122 => ⟨S16384x16x1, .f32⟩
  | 123 => ⟨S_, .f32⟩
  | 124 => ⟨S16384x16x1, .f32⟩
  | 125 => ⟨S16384x16x1, .f32⟩
  | 126 => ⟨S_, .f32⟩
  | 127 => ⟨S16384x16, .f32⟩
  | _ => ⟨S16384x1024, .f32⟩

abbrev hbmTy0_1 (i : Nat) : BufTy := match i % 128 with
  | 0 => ⟨S_, .f32⟩
  | 1 => ⟨S16384x16, .f32⟩
  | 2 => ⟨S16384x16, .f32⟩
  | 3 => ⟨S16384x16x1, .f32⟩
  | 4 => ⟨S16384x16x1, .f32⟩
  | 5 => ⟨S16384x16x1, .f32⟩
  | 6 => ⟨S_, .f32⟩
  | 7 => ⟨S16384x16, .f32⟩
  | 8 => ⟨S16384x16x1, .f32⟩
  | 9 => ⟨S16384x16x1, .f32⟩
  | 10 => ⟨S16384x16x64, .f32⟩
  | 11 => ⟨S16384x16x64, .f32⟩
  | 12 => ⟨S16384x1024, .f32⟩
  | 13 => ⟨S1024x1024, .f32⟩
  | 14 => ⟨S16384x1024, .f32⟩
  | 15 => ⟨S1x1024, .f32⟩
  | 16 => ⟨S16384x1024, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x1024, .f32⟩
  | 26 => ⟨S16384x1024, .f32⟩
  | 27 => ⟨S16384x1024, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S16384x1024, .f32⟩
  | 35 => ⟨S16384x1024, .f32⟩
  | 36 => ⟨S_, .f32⟩
  | 37 => ⟨S16384x1, .f32⟩
  | 38 => ⟨S16384x1, .f32⟩
  | 39 => ⟨S16384x1, .f32⟩
  | 40 => ⟨S16384x1024, .f32⟩
  | 41 => ⟨S16384x1024, .f32⟩
  | 42 => ⟨S1x1024, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_9 : Ref sig .tc := ⟨.hbm, 120, rfl⟩
abbrev main_v96 : Ref sig .tc := ⟨.hbm, 121, rfl⟩
abbrev main_v97 : Ref sig .tc := ⟨.hbm, 122, rfl⟩
abbrev main_cst_10 : Ref sig .tc := ⟨.hbm, 123, rfl⟩
abbrev main_v98 : Ref sig .tc := ⟨.hbm, 124, rfl⟩
abbrev main_v99 : Ref sig .tc := ⟨.hbm, 125, rfl⟩
abbrev main_cst_11 : Ref sig .tc := ⟨.hbm, 126, rfl⟩
abbrev main_v100 : Ref sig .tc := ⟨.hbm, 127, rfl⟩
abbrev main_cst_12 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_13 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_14 : Ref sig .tc := ⟨.hbm, 147, rfl⟩
abbrev main_v118 : Ref sig .tc := ⟨.hbm, 148, rfl⟩
abbrev main_v119 : Ref sig .tc := ⟨.hbm, 149, rfl⟩
abbrev main_cst_15 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_16 : Ref sig .tc := ⟨.hbm, 156, rfl⟩
abbrev main_v125 : Ref sig .tc := ⟨.hbm, 157, rfl⟩
abbrev main_v126 : Ref sig .tc := ⟨.hbm, 158, rfl⟩
abbrev main_cst_17 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_18 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩

abbrev nD : Nat := 1
abbrev τ : Topo := Topo.v7x

variable {F : FTy → Type} [FloatOps F]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x16x64 : S16384x1024.ShapeCasts S16384x16x64
  reducesTo_S16384x16x64_S16384x16_d2 : S16384x16x64.ReducesTo [2] S16384x16
  h_S_ : 0 < S_.numel
  bcast_S16384x16_S16384x16x1_0_1 : S16384x16.BroadcastsInDim S16384x16x1 (![0, 1] : Fin 2 → Fin S16384x16x1.rank)
  bcast_S_S16384x16x1 : S_.BroadcastsInDim S16384x16x1 (![] : Fin 0 → Fin S16384x16x1.rank)
  reducesTo_S16384x16x1_S16384x16_d2 : S16384x16x1.ReducesTo [2] S16384x16
  bcast_S_S16384x16 : S_.BroadcastsInDim S16384x16 (![] : Fin 0 → Fin S16384x16.rank)
  bcast_S16384x16x1_S16384x16x64_0_1_2 : S16384x16x1.BroadcastsInDim S16384x16x64 (![0, 1, 2] : Fin 3 → Fin S16384x16x64.rank)
  shapeCasts_S16384x16x64_S16384x1024 : S16384x16x64.ShapeCasts S16384x1024
  reducesTo_S16384x1024_S16384_d1 : S16384x1024.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KRun.lean ====
/-
  The idealized kernel's run with its two result arrays named.

  @main is four segments: the host operations that slice, transpose and re-lay the weights, the first call, four more
  reshapes, the second call. Every weakly fair execution terminates in a state in which each buffer that outlives a call
  holds what the fold of the segments leaves there; here that is read at the two result arrays and at the fourteen
  arguments. The first result is the first call's output array after its last write-back (no later segment writes it);
  the second result is the second call's.
-/
import proofs.«138096_j18356690223819_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result arrays at what the fold of the segments leaves in them, the arguments as launched. -/
theorem run_fold : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

/-- The first result array is the first call's output after its last write-back: the second call and the reshapes
    between the calls write other buffers. -/
theorem fold_v16 (c : Dev nD) : W4 m ρ c (Proc.devRef .tc main_v16) = (dat0 (V1 m ρ) c).arrAt 8 cfg0.N :=
  calc W4 m ρ c (Proc.devRef .tc main_v16)
    _ = W3 m ρ c (Proc.devRef .tc main_v16) := W4_of_ne m ρ c main_v16 (by decide)
    _ = W2 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 8 cfg0.N := W2_arr m ρ c 8

/-- The second result array is the second call's output after its last write-back. -/
theorem fold_v21 (c : Dev nD) : W4 m ρ c (Proc.devRef .tc main_v21) = (dat1 (V3 m ρ) c).arrAt 8 cfg1.N :=
  W4_arr m ρ c 8

end Cert.KernelIdeal.Hand

end
-- ==== Proof.Rows.lean ====
/-
  One branch of the block, row by row, on the extended reals.

  A row of the result depends on one row of each of the two feature arrays and on the weights: the value projection
  `v j = (∑ k, x2 k · Wv j k) + bv j`, the output projection plus the residual
  `y c = (∑ j, v j · Wo c j) + bo c + x1 c`, and the layer normalisation of `y` over the row: the mean `μ = (∑ c, y c) / n`,
  the variance `σ² = (∑ c, (y c - μ)²) / n`, and `(y c - μ) · (σ² + ε)^(-1/2) · g c + b c`. The divisor `n` and the
  `ε` are kept as the words both programs print. Also here: the extended reals that are real numbers are closed under
  the sums and products a score is made of, and the softmax over ONE key of a real score is exactly 1.
-/
import Idealize.ShloMosaic.PureOps.Ideal
import Idealize.ShloMosaic.PureOps.Ideal.Laws

noncomputable section

open Idealize.ShloMosaic

namespace Cert.Rows

/-! ## The row function -/

/-- The value projection of a row. -/
def proj (x : Fin 1024 → EReal) (W : Fin 1024 → Fin 1024 → EReal) (bv : Fin 1024 → EReal) (j : Fin 1024) : EReal :=
  (∑ k : Fin 1024, x k * W j k) + bv j

/-- The output projection of the projected row, plus its bias, plus the residual row. -/
def resid (x1 x2 : Fin 1024 → EReal) (Wv : Fin 1024 → Fin 1024 → EReal) (bv : Fin 1024 → EReal)
    (Wo : Fin 1024 → Fin 1024 → EReal) (bo : Fin 1024 → EReal) (c : Fin 1024) : EReal :=
  (∑ j : Fin 1024, proj x2 Wv bv j * Wo c j) + bo c + x1 c

/-- The mean of a row, the divisor the printed word. -/
def mean (y : Fin 1024 → EReal) : EReal := Ideal.div (∑ c : Fin 1024, y c) (Ideal.ofBits .f32 0x44800000#32)

/-- The layer normalisation of a row. -/
def lnorm (y : Fin 1024 → EReal) (g b : Fin 1024 → EReal) (c : Fin 1024) : EReal :=
  (y c - mean y) * Ideal.rsqrt (Ideal.div (∑ c' : Fin 1024, (y c' - mean y) * (y c' - mean y)) (Ideal.ofBits .f32 0x44800000#32)
      + Ideal.ofBits .f32 0x3727C5AC#32) * g c + b c

/-- A row of the result. -/
def outRow (x1 x2 : Fin 1024 → EReal) (Wv : Fin 1024 → Fin 1024 → EReal) (bv : Fin 1024 → EReal)
    (Wo : Fin 1024 → Fin 1024 → EReal) (bo g b : Fin 1024 → EReal) (c : Fin 1024) : EReal :=
  lnorm (resid x1 x2 Wv bv Wo bo) g b c

/-! ## Real numbers among the extended reals -/

/-- An extended real that is a real number. -/
def IsReal (x : EReal) : Prop := ∃ r : ℝ, x = (r : EReal)

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The word of 8.0 is the real 8. -/
theorem ofBits_eight : Ideal.ofBits .f32 0x41000000#32 = ((8 : ℝ) : EReal) := by
  simp [Ideal.ofBits, Ideal.ieee, -EReal.coe_mul]; norm_num

/-- The word of -∞ is the bottom element. -/
theorem ofBits_neg_inf : Ideal.ofBits .f32 0xFF800000#32 = ⊥ := by simp [Ideal.ofBits, Ideal.ieee]

/-- A real divided by 8 is a real. -/
theorem IsReal.div_eight {x : EReal} (hx : IsReal x) : IsReal (Ideal.div x (Ideal.ofBits .f32 0x41000000#32)) := by
  obtain ⟨a, rfl⟩ := hx
  rw [ofBits_eight, Ideal.div_coe (by norm_num : (8 : ℝ) ≠ 0)]
  exact ⟨a * (1 / 8), (EReal.coe_mul a (1 / 8)).symm⟩

/-- The softmax over one key: a real score minus itself is 0, its exponential 1, the sum of the one exponential 1, the
    quotient 1. (At an infinite score the difference is the junk value and the weight is not 1.) -/
theorem softmax_one_key (s : EReal) (hs : IsReal s) :
    Ideal.div (Ideal.exp (s - max ⊥ (max s ⊥))) (0 + Ideal.exp (s - max ⊥ (max s ⊥))) = 1 := by
  obtain ⟨r, rfl⟩ := hs
  have h1 : max (⊥ : EReal) (max (r : EReal) ⊥) = r := by simp
  rw [h1, ← EReal.coe_sub, sub_self, Ideal.exp_coe, Real.exp_zero, zero_add, EReal.coe_one]
  simp [Ideal.div]

end Cert.Rows

end
-- ==== Proof.Payload.lean ====
/-
  What the kernel body stores, read at one element.

  The body takes a block of 512 rows of each feature array and the whole (transposed) weights. Its stored value is, row
  by row, the row function of `Rows`: two matrix products into a zero accumulator (each a sum over the 1024 contracted
  coordinates), the biases and the residual added, then the layer normalisation with its two lane sums. Changes of float
  format are the identity on the extended reals. Nothing here depends on which call the body belongs to.
-/
import proofs.«138096_j18356690223819_1_alg».proof.Proof.Gen.KernelIdeal.Skeleton
import proofs.«138096_j18356690223819_1_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The matrix product into a zero accumulator -/

private theorem lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a block of rows with a square matrix, at row `p` and column `c`: the sum over the contracted
    coordinate of the row's entry times the column's. -/
theorem matmul_at (A : FVec Ideal S512x1024 .bf16) (B : FVec Ideal S1024x1024 .bf16) (p : Fin 512) (c : Fin 1024) :
    matmul dot_S512x1024_S1024x1024_S512x1024_1_0_0_1_n_n none A B (constant S512x1024 .f32 0x00000000#32) (ix2 p c)
      = ∑ k : Fin 1024, A (ix2 p k) * B (ix2 k c) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p c) ((ValueIdx.contrEquiv1 dot_S512x1024_S1024x1024_S512x1024_1_0_0_1_n_n 1024 rfl rfl).symm k) = ix2 p k := funext fun a => Fin.ext (by
    match a with
    | ⟨0, _⟩ => exact lhs0 _ _
    | ⟨1, _⟩ => exact (lhs1 _ _).trans hk)
  have er : dot_S512x1024_S1024x1024_S512x1024_1_0_0_1_n_n.rhsIdx (ix2 p c) ((ValueIdx.contrEquiv1 dot_S512x1024_S1024x1024_S512x1024_1_0_0_1_n_n 1024 rfl rfl).symm k) = ix2 k c := funext fun a => Fin.ext (by
    match a with
    | ⟨0, _⟩ => exact (rhs0 _ _).trans hk
    | ⟨1, _⟩ => exact rhs1 _ _)
  rw [el, er]

/-! ## The lane sum, the column it becomes, and the broadcasts -/

/-- The sum over the lanes of row `p`. -/
theorem rowsum_at (v : FVec Ideal S512x1024 .f32) (p : Fin 512) :
    multiReduction .add [1] S512 v 0x00000000#32 reduces_S512x1024_S512 (.inl rfl) rfl (ix1 p) = ∑ k : Fin 1024, v (ix2 p k) := by
  refine (Ideal.multiReduction_add_single v _ reduces_S512x1024_S512 _ _ (ix1 p)).trans ?_
  show ∑ k : Fin 1024, v (reduces_S512x1024_S512.lift (ix1 p) k) = _
  refine Finset.sum_congr rfl fun k _ => congrArg v ?_
  funext a; apply Fin.ext
  match a with
  | ⟨0, _⟩ => rfl
  | ⟨1, _⟩ => rfl

/-- A vector of 512 row values as a one-lane column. -/
theorem col_cast (v : FVec Ideal S512 .f32) (p : Fin 512) (u : Fin 1) :
    shapeCast S512x1 v shapeCasts_S512_S512x1 (ix2 p u) = v (ix1 p) :=
  shapeCast_apply v shapeCasts_S512_S512x1 _ _ (by
    rw [Shape.rowMajor_val_one, Shape.rowMajor_val_two]
    show p.val = p.val * 1 + u.val
    have := u.isLt; omega)

/-- A one-lane column broadcast over the lanes. -/
theorem col_bcast (v : FVec Ideal S512x1 .f32) (p : Fin 512) (q : Fin 1024) :
    broadcastTo S512x1024 v broadcasts_S512x1_S512x1024 (ix2 p q) = v (ix2 p (0 : Fin 1)) := by
  refine broadcastTo_apply v broadcasts_S512x1_S512x1024 (ix2 p q) (ix2 p (0 : Fin 1)) fun ax => ?_
  match ax with
  | ⟨0, _⟩ => show p.val = if (512 : Nat) = 1 then 0 else p.val; rw [if_neg (by decide)]
  | ⟨1, _⟩ => show (0 : Nat) = if (1 : Nat) = 1 then 0 else q.val; rw [if_pos rfl]

/-- A one-row array (its cast to itself dropped) broadcast over the rows. -/
theorem row_bcast (v : FVec Ideal S1x1024 .f32) (p : Fin 512) (q : Fin 1024) :
    broadcastTo S512x1024 (shapeCast S1x1024 v shapeCasts_S1x1024_S1x1024) broadcasts_S1x1024_S512x1024 (ix2 p q) = v (ix2 (0 : Fin 1) q) := by
  rw [shapeCast_self]
  exact broadcastTo_1b_ab_apply v broadcasts_S1x1024_S512x1024 p q

/-! ## The body's two halves -/

/-- The projections, biases and residual: the value the normalisation is applied to. -/
def resPart (v0 : FVec Ideal S512x1024 .f32) (v2 : FVec Ideal S1024x1024 .bf16) (v5 : FVec Ideal S1x1024 .f32) (v10 : FVec Ideal S1024x1024 .bf16)
    (v13 : FVec Ideal S1x1024 .f32) (v17 : FVec Ideal S512x1024 .f32) : FVec Ideal S512x1024 .f32 :=
  addf (addf (matmul dot_S512x1024_S1024x1024_S512x1024_1_0_0_1_n_n none
      (truncf .bf16 (addf (matmul dot_S512x1024_S1024x1024_S512x1024_1_0_0_1_n_n none (truncf .bf16 v0 bitsLt_bf16_f32 : FVec Ideal S512x1024 .bf16)
          (shapeCast S1024x1024 v2 shapeCasts_S1024x1024_S1024x1024 : FVec Ideal S1024x1024 .bf16) (constant S512x1024 .f32 0x00000000#32))
        (broadcastTo S512x1024 (shapeCast S1x1024 v5 shapeCasts_S1x1024_S1x1024 : FVec Ideal S1x1024 .f32) broadcasts_S1x1024_S512x1024)) bitsLt_bf16_f32 : FVec Ideal S512x1024 .bf16)
      (shapeCast S1024x1024 v10 shapeCasts_S1024x1024_S1024x1024 : FVec Ideal S1024x1024 .bf16) (constant S512x1024 .f32 0x00000000#32))
    (broadcastTo S512x1024 (shapeCast S1x1024 v13 shapeCasts_S1x1024_S1x1024 : FVec Ideal S1x1024 .f32) broadcasts_S1x1024_S512x1024)) v17

/-- The mean over the lanes as a one-lane column. -/
def meanCol (y : FVec Ideal S512x1024 .f32) : FVec Ideal S512x1 .f32 :=
  divf (shapeCast S512x1 (multiReduction .add [1] S512 y 0x00000000#32 reduces_S512x1024_S512 (.inl rfl) rfl) shapeCasts_S512_S512x1)
    (broadcast S512x1 (Scalar.ofBits .f32 0x44800000#32))

/-- The rows with their means taken off. -/
def cen (y : FVec Ideal S512x1024 .f32) : FVec Ideal S512x1024 .f32 :=
  subf y (broadcastTo S512x1024 (meanCol y) broadcasts_S512x1_S512x1024)

/-- The normalisation, before scale and shift. -/
def lnPart (y : FVec Ideal S512x1024 .f32) : FVec Ideal S512x1024 .f32 :=
  mulf (cen y) (broadcastTo S512x1024 (rsqrt (addf (meanCol (mulf (cen y) (cen y))) (broadcast S512x1 (Scalar.ofBits .f32 0x3727C5AC#32))))
    broadcasts_S512x1_S512x1024)

/-- The first stored factor is the normalisation of the residual value. -/
theorem pay2_split (v0 : FVec Ideal S512x1024 .f32) (v2 : FVec Ideal S1024x1024 .bf16) (v5 : FVec Ideal S1x1024 .f32) (v10 : FVec Ideal S1024x1024 .bf16)
    (v13 : FVec Ideal S1x1024 .f32) (v17 : FVec Ideal S512x1024 .f32) :
    k0_pay2 (F := Ideal) v0 v2 v5 v10 v13 v17 = lnPart (resPart v0 v2 v5 v10 v13 v17) := rfl

/-- The second call's body computes the same two values. -/
theorem pay2_same : @k1_pay2 Ideal _ = @k0_pay2 Ideal _ := rfl
theorem pay1_same : @k1_pay1 Ideal _ = @k0_pay1 Ideal _ := rfl

/-! ## Each half at an element -/

theorem resPart_at (x2 : FVec Ideal S512x1024 .f32) (wv : FVec Ideal S1024x1024 .bf16) (bv : FVec Ideal S1x1024 .f32) (wo : FVec Ideal S1024x1024 .bf16)
    (bo : FVec Ideal S1x1024 .f32) (x1 : FVec Ideal S512x1024 .f32) (p : Fin 512) (c : Fin 1024) :
    resPart x2 wv bv wo bo x1 (ix2 p c)
      = Rows.resid (fun k => x1 (ix2 p k)) (fun k => x2 (ix2 p k)) (fun j k => wv (ix2 k j)) (fun j => bv (ix2 (0 : Fin 1) j))
          (fun c' j => wo (ix2 j c')) (fun c' => bo (ix2 (0 : Fin 1) c')) c := by
  unfold resPart Rows.resid Rows.proj
  rw [addf_apply, addf_apply, matmul_at, row_bcast]
  refine congrArg (· + x1 (ix2 p c)) (congrArg (· + bo (ix2 (0 : Fin 1) c)) (Finset.sum_congr rfl fun j _ => ?_))
  rw [shapeCast_self, truncf_apply, addf_apply, matmul_at, row_bcast, shapeCast_self]
  rfl

theorem meanCol_at (y : FVec Ideal S512x1024 .f32) (p : Fin 512) (u : Fin 1) :
    meanCol y (ix2 p u) = Rows.mean fun c => y (ix2 p c) := by
  unfold meanCol Rows.mean
  rw [divf_apply, col_cast, rowsum_at]
  rfl

theorem cen_at (y : FVec Ideal S512x1024 .f32) (p : Fin 512) (q : Fin 1024) :
    cen y (ix2 p q) = y (ix2 p q) - Rows.mean fun c => y (ix2 p c) := by
  unfold cen
  rw [subf_apply, col_bcast, meanCol_at]

theorem lnPart_at (y : FVec Ideal S512x1024 .f32) (p : Fin 512) (q : Fin 1024) :
    lnPart y (ix2 p q)
      = (y (ix2 p q) - Rows.mean fun c => y (ix2 p c))
        * Ideal.rsqrt (Ideal.div (∑ c' : Fin 1024, (y (ix2 p c') - Rows.mean fun c => y (ix2 p c)) * (y (ix2 p c') - Rows.mean fun c => y (ix2 p c)))
            (Ideal.ofBits .f32 0x44800000#32) + Ideal.ofBits .f32 0x3727C5AC#32) := by
  unfold lnPart
  rw [mulf_apply, cen_at, col_bcast]
  refine congrArg (fun z : EReal => (y (ix2 p q) - Rows.mean fun c => y (ix2 p c)) * z) ?_
  show Ideal.rsqrt (meanCol (mulf (cen y) (cen y)) (ix2 p (0 : Fin 1)) + Ideal.ofBits .f32 0x3727C5AC#32) = _
  rw [meanCol_at]
  unfold Rows.mean
  refine congrArg (fun s : EReal => Ideal.rsqrt (Ideal.div s (Ideal.ofBits .f32 0x44800000#32) + Ideal.ofBits .f32 0x3727C5AC#32)) (Finset.sum_congr rfl fun c' _ => ?_)
  show mulf (cen y) (cen y) (ix2 p c') = _
  rw [mulf_apply, cen_at]
  rfl

/-- THE STORED VALUE at row `p` and lane `q` of the block: the row function of the block's rows and the weights. -/
theorem pay_at (x1 x2 : FVec Ideal S512x1024 .f32) (wv wo : FVec Ideal S1024x1024 .bf16) (bv bo g b : FVec Ideal S1x1024 .f32)
    (p : Fin 512) (q : Fin 1024) :
    k0_pay1 (F := Ideal) (k0_pay2 x2 wv bv wo bo x1) g b (ix2 p q)
      = Rows.outRow (fun k => x1 (ix2 p k)) (fun k => x2 (ix2 p k)) (fun j k => wv (ix2 k j)) (fun j => bv (ix2 (0 : Fin 1) j))
          (fun c j => wo (ix2 j c)) (fun c => bo (ix2 (0 : Fin 1) c)) (fun c => g (ix2 (0 : Fin 1) c)) (fun c => b (ix2 (0 : Fin 1) c)) q := by
  rw [pay2_split]
  unfold k0_pay1
  show lnPart (resPart x2 wv bv wo bo x1) (ix2 p q) * broadcastTo S512x1024 (shapeCast S1x1024 g shapeCasts_S1x1024_S1x1024) broadcasts_S1x1024_S512x1024 (ix2 p q)
      + broadcastTo S512x1024 (shapeCast S1x1024 b shapeCasts_S1x1024_S1x1024) broadcasts_S1x1024_S512x1024 (ix2 p q) = _
  rw [row_bcast, row_bcast, lnPart_at]
  unfold Rows.outRow Rows.lnorm Rows.mean
  simp only [resPart_at]

end Cert.KernelIdeal.Hand

end
-- ==== Proof.Spec.lean ====
/-
  One branch as a function of whole arrays.

  `branch x1 x2 W bi Wo bo g b` is the [16384, 1024] array whose row `r` is the row function of row `r` of `x1` (the
  residual) and of `x2` (the projected features), with the value projection's weights the LAST third of the packed
  [3072, 1024] matrix `W` (rows 2048 … 3071: entry `(j, k)` of the value weights is `W (2048 + j, k)`) and its bias the last
  third of `bi`. The first result of the program is `branch` of (image, text, first weights), the second `branch` of
  (text, image, second weights).
-/
import proofs.«138096_j18356690223819_1_alg».proof.Proof.Rows
import Idealize.ShloMosaic.Lib.ValueIdx

noncomputable section

open Idealize.ShloMosaic Idealize.ShloMosaic.ValueIdx

namespace Cert.Spec

/-- Row `2048 + j`, column `k` of the packed projection weights. -/
abbrev ixW (j k : Fin 1024) : (⟨2, ![3072, 1024]⟩ : Shape).Idx := ix2 (⟨2048 + j.val, by have := j.isLt; omega⟩ : Fin 3072) k

/-- Entry `2048 + j` of the packed projection bias. -/
abbrev ixb (j : Fin 1024) : (⟨1, ![3072]⟩ : Shape).Idx := ix1 (⟨2048 + j.val, by have := j.isLt; omega⟩ : Fin 3072)

/-- The row and the column of an index of a [16384, 1024] array. -/
abbrev rowOf (i : (⟨2, ![16384, 1024]⟩ : Shape).Idx) : Fin 16384 := ⟨(i 0).val, (i 0).isLt⟩
abbrev colOf (i : (⟨2, ![16384, 1024]⟩ : Shape).Idx) : Fin 1024 := ⟨(i 1).val, (i 1).isLt⟩

/-- One branch: cross attention over a single key (so only the value and output projections act), the residual, and
    the layer normalisation. -/
def branch (x1 x2 : (⟨2, ![16384, 1024]⟩ : Shape).Idx → EReal) (W : (⟨2, ![3072, 1024]⟩ : Shape).Idx → EReal)
    (bi : (⟨1, ![3072]⟩ : Shape).Idx → EReal) (Wo : (⟨2, ![1024, 1024]⟩ : Shape).Idx → EReal)
    (bo g b : (⟨1, ![1024]⟩ : Shape).Idx → EReal) : (⟨2, ![16384, 1024]⟩ : Shape).Idx → EReal := fun i =>
  Rows.outRow (fun k => x1 (ix2 (rowOf i) k)) (fun k => x2 (ix2 (rowOf i) k)) (fun j k => W (ixW j k)) (fun j => bi (ixb j))
    (fun c j => Wo (ix2 c j)) (fun c => bo (ix1 c)) (fun c => g (ix1 c)) (fun c => b (ix1 c)) (colOf i)

end Cert.Spec

end
-- ==== Proof.BlockRow.lean ====
/-
  One grid point's block is a block of `branch`.

  If the two feature blocks a point stages are rows `r0 … r0 + 511` of two arrays, and the staged weights are the
  transposed last third of the packed projection weights, the last third of its bias, the transposed output weights, and
  the output bias and normalisation vectors as rows, then what the body stores at row `p`, lane `q` is `branch` of
  those arrays at row `r0 + p`, column `q`.
-/
import proofs.«138096_j18356690223819_1_alg».proof.Proof.Payload
import proofs.«138096_j18356690223819_1_alg».proof.Proof.Spec

noncomputable section

namespace Cert.KernelIdeal.Hand

open Cert.KernelIdeal Cert.KernelIdeal.Gen Idealize.ShloMosaic Idealize.ShloMosaic.ValueIdx Cert.Spec

theorem block_at (X1 X2 : FVec Ideal S512x1024 .f32) (WV WO : FVec Ideal S1024x1024 .bf16) (BV BO G B : FVec Ideal S1x1024 .f32)
    (A1 A2 : (⟨2, ![16384, 1024]⟩ : Shape).Idx → EReal) (W : (⟨2, ![3072, 1024]⟩ : Shape).Idx → EReal)
    (bi : (⟨1, ![3072]⟩ : Shape).Idx → EReal) (Wo : (⟨2, ![1024, 1024]⟩ : Shape).Idx → EReal)
    (bo g b : (⟨1, ![1024]⟩ : Shape).Idx → EReal)
    (row : Fin 512 → Fin 16384)
    (h1 : ∀ (p : Fin 512) (k : Fin 1024), X1 (ix2 p k) = A1 (ix2 (row p) k))
    (h2 : ∀ (p : Fin 512) (k : Fin 1024), X2 (ix2 p k) = A2 (ix2 (row p) k))
    (hwv : ∀ k j : Fin 1024, WV (ix2 k j) = W (ixW j k))
    (hbv : ∀ j : Fin 1024, BV (ix2 (0 : Fin 1) j) = bi (ixb j))
    (hwo : ∀ j c : Fin 1024, WO (ix2 j c) = Wo (ix2 c j))
    (hbo : ∀ c : Fin 1024, BO (ix2 (0 : Fin 1) c) = bo (ix1 c))
    (hg : ∀ c : Fin 1024, G (ix2 (0 : Fin 1) c) = g (ix1 c))
    (hb : ∀ c : Fin 1024, B (ix2 (0 : Fin 1) c) = b (ix1 c))
    (p : Fin 512) (q : Fin 1024) :
    k0_pay1 (F := Ideal) (k0_pay2 X2 WV BV WO BO X1) G B (ix2 p q) = branch A1 A2 W bi Wo bo g b (ix2 (row p) q) := by
  rw [pay_at]
  have e1 : (fun k => X1 (ix2 p k)) = fun k => A1 (ix2 (row p) k) := funext (h1 p)
  have e2 : (fun k => X2 (ix2 p k)) = fun k => A2 (ix2 (row p) k) := funext (h2 p)
  have e3 : (fun j k => WV (ix2 k j)) = fun j k => W (ixW j k) := funext fun j => funext fun k => hwv k j
  have e4 : (fun j => BV (ix2 (0 : Fin 1) j)) = fun j => bi (ixb j) := funext hbv
  have e5 : (fun c j => WO (ix2 j c)) = fun c j => Wo (ix2 c j) := funext fun c => funext fun j => hwo j c
  have e6 : (fun c => BO (ix2 (0 : Fin 1) c)) = fun c => bo (ix1 c) := funext hbo
  have e7 : (fun c => G (ix2 (0 : Fin 1) c)) = fun c => g (ix1 c) := funext hg
  have e8 : (fun c => B (ix2 (0 : Fin 1) c)) = fun c => b (ix1 c) := funext hb
  rw [e1, e2, e3, e4, e5, e6, e7, e8]
  rfl

end Cert.KernelIdeal.Hand

end
-- ==== Proof.Entry.lean ====
/-
  What each call finds in the arrays it stages.

  The first call stages the two feature arrays as launched, and six arrays the host operations before it wrote: the last
  third of the first packed projection weights, transposed (entry `(k, j)` is the packed matrix at `(2048 + j, k)`); the
  last third of the packed bias as one row; the first output weights transposed; and the output bias and the two
  normalisation vectors as one row each. The second call stages the feature arrays in the other order and the same six
  arrays made from the second set of weights; its one-row arrays are written by the reshapes between the calls, from
  buffers the first call does not write, and the feature arrays come through the first call unchanged.
-/
import proofs.«138096_j18356690223819_1_alg».proof.Proof.Gen.KernelIdeal.Frame
import proofs.«138096_j18356690223819_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo Cert.Spec

variable (m : (ℓ : Loc nD τ sig) → Buf (Elt Ideal) ℓ) (ρ : Dev nD → PrngReg)

/-! ## The first call -/

theorem V1_main_arg0 (c : Dev nD) : V1 m ρ c main_arg0 = m ((c : Thread nD τ).loc main_arg0) := by
  dsimp only [V1, W1, W0, hostOps0]
  after_results
  try rfl

theorem V1_main_arg1 (c : Dev nD) : V1 m ρ c main_arg1 = m ((c : Thread nD τ).loc main_arg1) := by
  dsimp only [V1, W1, W0, hostOps0]
  after_results
  try rfl

/-- `main_v5`: the last third of the packed projection weights, transposed. -/
theorem at_main_v5 (c : Dev nD) (k j : Fin 1024) : V1 m ρ c main_v5 (ix2 k j) = m ((c : Thread nD τ).loc main_arg2) (ixW j k) := by
  have e : V1 m ρ c main_v5 = truncf (F := Ideal) .bf16 (transpose S1024x1024 [1, 0] (extractStridedSlice S1024x1024 ![2048, 0] (m ((c : Thread nD τ).loc main_arg2)) slices_S3072x1024_S1024x1024_2048_0) transposes_S1024x1024_S1024x1024_1_0) bitsLt_bf16_f32 := by
    dsimp only [V1, W1, W0, hostOps0]
    after_results
    try rfl
  refine (congrFun e _).trans ?_
  rw [truncf_apply, transpose_ix2_apply]
  exact slice2_axis0_apply 2048 _ slices_S3072x1024_S1024x1024_2048_0 j k ⟨2048 + j.val, by have := j.isLt; omega⟩ rfl

/-- `main_v12`: the last third of the packed projection bias, as one row. -/
theorem at_main_v12 (c : Dev nD) (j : Fin 1024) : V1 m ρ c main_v12 (ix2 (0 : Fin 1) j) = m ((c : Thread nD τ).loc main_arg3) (ixb j) := by
  have e : V1 m ρ c main_v12 = shapeCast S1x1024 (extractStridedSlice S1024 ![2048] (m ((c : Thread nD τ).loc main_arg3)) slices_S3072_S1024_2048) shapeCasts_S1024_S1x1024 := by
    dsimp only [V1, W1, W0, hostOps0]
    after_results
    try rfl
  refine (congrFun e _).trans ?_
  rw [shapeCast_a_1a_apply]
  exact extractStridedSlice_apply ![2048] _ slices_S3072_S1024_2048 (ix1 j) (ixb j) (fun a => match a with | ⟨0, _⟩ => rfl)

/-- `main_v7`: the output weights, transposed. -/
theorem at_main_v7 (c : Dev nD) (j c' : Fin 1024) : V1 m ρ c main_v7 (ix2 j c') = m ((c : Thread nD τ).loc main_arg4) (ix2 c' j) := by
  have e : V1 m ρ c main_v7 = truncf (F := Ideal) .bf16 (transpose S1024x1024 [1, 0] (m ((c : Thread nD τ).loc main_arg4)) transposes_S1024x1024_S1024x1024_1_0) bitsLt_bf16_f32 := by
    dsimp only [V1, W1, W0, hostOps0]
    after_results
    try rfl
  refine (congrFun e _).trans ?_
  rw [truncf_apply, transpose_ix2_apply]

/-- `main_v13`: `main_arg5` as one row. -/
theorem at_main_v13 (c : Dev nD) (j : Fin 1024) : V1 m ρ c main_v13 (ix2 (0 : Fin 1) j) = m ((c : Thread nD τ).loc main_arg5) (ix1 j) := by
  have e : V1 m ρ c main_v13 = shapeCast S1x1024 (m ((c : Thread nD τ).loc main_arg5)) shapeCasts_S1024_S1x1024 := by
    dsimp only [V1, W1, W0, hostOps0]
    after_results
    try rfl
  exact (congrFun e _).trans (shapeCast_a_1a_apply _ shapeCasts_S1024_S1x1024 (0 : Fin 1) j)

/-- `main_v14`: `main_arg10` as one row. -/
theorem at_main_v14 (c : Dev nD) (j : Fin 1024) : V1 m ρ c main_v14 (ix2 (0 : Fin 1) j) = m ((c : Thread nD τ).loc main_arg10) (ix1 j) := by
  have e : V1 m ρ c main_v14 = shapeCast S1x1024 (m ((c : Thread nD τ).loc main_arg10)) shapeCasts_S1024_S1x1024 := by
    dsimp only [V1, W1, W0, hostOps0]
    after_results
    try rfl
  exact (congrFun e _).trans (shapeCast_a_1a_apply _ shapeCasts_S1024_S1x1024 (0 : Fin 1) j)

/-- `main_v15`: `main_arg11` as one row. -/
theorem at_main_v15 (c : Dev nD) (j : Fin 1024) : V1 m ρ c main_v15 (ix2 (0 : Fin 1) j) = m ((c : Thread nD τ).loc main_arg11) (ix1 j) := by
  have e : V1 m ρ c main_v15 = shapeCast S1x1024 (m ((c : Thread nD τ).loc main_arg11)) shapeCasts_S1024_S1x1024 := by
    dsimp only [V1, W1, W0, hostOps0]
    after_results
    try rfl
  exact (congrFun e _).trans (shapeCast_a_1a_apply _ shapeCasts_S1024_S1x1024 (0 : Fin 1) j)

/-! ## The second call -/

theorem V3_main_arg1 (c : Dev nD) : V3 m ρ c main_arg1 = m ((c : Thread nD τ).loc main_arg1) := by
  have e : V3 m ρ c main_arg1 = W2 m ρ c (Proc.devRef .tc main_arg1) := by
    dsimp only [V3, W3, hostOps1]
    after_results
    try rfl
  refine e.trans ?_
  exact (W2_arr m ρ c 1).trans (((dat0 (V1 m ρ) c).arrAt_in 1 rfl _).trans ((A_eq0 (V1 m ρ) c 1).trans (V1_main_arg1 m ρ c)))

theorem V3_main_arg0 (c : Dev nD) : V3 m ρ c main_arg0 = m ((c : Thread nD τ).loc main_arg0) := by
  have e : V3 m ρ c main_arg0 = W2 m ρ c (Proc.devRef .tc main_arg0) := by
    dsimp only [V3, W3, hostOps1]
    after_results
    try rfl
  refine e.trans ?_
  exact (W2_arr m ρ c 0).trans (((dat0 (V1 m ρ) c).arrAt_in 0 rfl _).trans ((A_eq0 (V1 m ρ) c 0).trans (V1_main_arg0 m ρ c)))

/-- `main_v9`: the last third of the packed projection weights, transposed. -/
theorem at_main_v9 (c : Dev nD) (k j : Fin 1024) : V3 m ρ c main_v9 (ix2 k j) = m ((c : Thread nD τ).loc main_arg6) (ixW j k) := by
  have e : V3 m ρ c main_v9 = truncf (F := Ideal) .bf16 (transpose S1024x1024 [1, 0] (extractStridedSlice S1024x1024 ![2048, 0] (m ((c : Thread nD τ).loc main_arg6)) slices_S3072x1024_S1024x1024_2048_0) transposes_S1024x1024_S1024x1024_1_0) bitsLt_bf16_f32 := by
    dsimp only [V3, W3, hostOps1]
    after_results
    rw [W2_of_ne m ρ c main_v9 (by decide)]
    dsimp only [W1, W0, hostOps0]
    after_results
    try rfl
  refine (congrFun e _).trans ?_
  rw [truncf_apply, transpose_ix2_apply]
  exact slice2_axis0_apply 2048 _ slices_S3072x1024_S1024x1024_2048_0 j k ⟨2048 + j.val, by have := j.isLt; omega⟩ rfl

/-- `main_v17`: the last third of the packed projection bias, as one row. -/
theorem at_main_v17 (c : Dev nD) (j : Fin 1024) : V3 m ρ c main_v17 (ix2 (0 : Fin 1) j) = m ((c : Thread nD τ).loc main_arg7) (ixb j) := by
  have e : V3 m ρ c main_v17 = shapeCast S1x1024 (extractStridedSlice S1024 ![2048] (m ((c : Thread nD τ).loc main_arg7)) slices_S3072_S1024_2048) shapeCasts_S1024_S1x1024 := by
    dsimp only [V3, W3, hostOps1]
    after_results
    rw [W2_of_ne m ρ c main_v3 (by decide)]
    dsimp only [W1, W0, hostOps0]
    after_results
    try rfl
  refine (congrFun e _).trans ?_
  rw [shapeCast_a_1a_apply]
  exact extractStridedSlice_apply ![2048] _ slices_S3072_S1024_2048 (ix1 j) (ixb j) (fun a => match a with | ⟨0, _⟩ => rfl)

/-- `main_v11`: the output weights, transposed. -/
theorem at_main_v11 (c : Dev nD) (j c' : Fin 1024) : V3 m ρ c main_v11 (ix2 j c') = m ((c : Thread nD τ).loc main_arg8) (ix2 c' j) := by
  have e : V3 m ρ c main_v11 = truncf (F := Ideal) .bf16 (transpose S1024x1024 [1, 0] (m ((c : Thread nD τ).loc main_arg8)) transposes_S1024x1024_S1024x1024_1_0) bitsLt_bf16_f32 := by
    dsimp only [V3, W3, hostOps1]
    after_results
    rw [W2_of_ne m ρ c main_v11 (by decide)]
    dsimp only [W1, W0, hostOps0]
    after_results
    try rfl
  refine (congrFun e _).trans ?_
  rw [truncf_apply, transpose_ix2_apply]

/-- `main_v18`: `main_arg9` as one row. -/
theorem at_main_v18 (c : Dev nD) (j : Fin 1024) : V3 m ρ c main_v18 (ix2 (0 : Fin 1) j) = m ((c : Thread nD τ).loc main_arg9) (ix1 j) := by
  have e : V3 m ρ c main_v18 = shapeCast S1x1024 (m ((c : Thread nD τ).loc main_arg9)) shapeCasts_S1024_S1x1024 := by
    dsimp only [V3, W3, hostOps1]
    after_results
    rw [W2_of_ne m ρ c main_arg9 (by decide)]
    dsimp only [W1, W0, hostOps0]
    after_results
    try rfl
  exact (congrFun e _).trans (shapeCast_a_1a_apply _ shapeCasts_S1024_S1x1024 (0 : Fin 1) j)

/-- `main_v19`: `main_arg12` as one row. -/
theorem at_main_v19 (c : Dev nD) (j : Fin 1024) : V3 m ρ c main_v19 (ix2 (0 : Fin 1) j) = m ((c : Thread nD τ).loc main_arg12) (ix1 j) := by
  have e : V3 m ρ c main_v19 = shapeCast S1x1024 (m ((c : Thread nD τ).loc main_arg12)) shapeCasts_S1024_S1x1024 := by
    dsimp only [V3, W3, hostOps1]
    after_results
    rw [W2_of_ne m ρ c main_arg12 (by decide)]
    dsimp only [W1, W0, hostOps0]
    after_results
    try rfl
  exact (congrFun e _).trans (shapeCast_a_1a_apply _ shapeCasts_S1024_S1x1024 (0 : Fin 1) j)

/-- `main_v20`: `main_arg13` as one row. -/
theorem at_main_v20 (c : Dev nD) (j : Fin 1024) : V3 m ρ c main_v20 (ix2 (0 : Fin 1) j) = m ((c : Thread nD τ).loc main_arg13) (ix1 j) := by
  have e : V3 m ρ c main_v20 = shapeCast S1x1024 (m ((c : Thread nD τ).loc main_arg13)) shapeCasts_S1024_S1x1024 := by
    dsimp only [V3, W3, hostOps1]
    after_results
    rw [W2_of_ne m ρ c main_arg13 (by decide)]
    dsimp only [W1, W0, hostOps0]
    after_results
    try rfl
  exact (congrFun e _).trans (shapeCast_a_1a_apply _ shapeCasts_S1024_S1x1024 (0 : Fin 1) j)

end Cert.KernelIdeal.Hand

end
-- ==== Proof.Blocks0.lean ====
/-
  The first call's output array after the run is `branch` of the arguments.

  Point `t` of the grid stages rows `512 t … 512 t + 511` of the two feature arrays and the whole of each weight array, and
  writes its block back to the same rows of the output. So what it writes back is block `t` of `branch` (the body's
  stored value, read row by row), the 32 blocks cover the array, and the array ends as `branch` of the launch contents.
-/
import proofs.«138096_j18356690223819_1_alg».proof.Proof.Gen.KernelIdeal.Frame
import proofs.«138096_j18356690223819_1_alg».proof.Proof.BlockRow
import proofs.«138096_j18356690223819_1_alg».proof.Proof.Entry
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

private theorem hz0 : (![0, 0] : Fin 2 → Nat) = fun _ => 0 := funext fun a => by fin_cases a <;> rfl

/-- The index maps over the grid: the feature windows and the output move one block of rows per point, the weight
    windows stay. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0 :=
  (by decide +kernel : ∀ t : Fin grid0.N, _)

/-- The first result as a function of the launch contents. -/
abbrev res0 (c : Dev nD) : (⟨2, ![16384, 1024]⟩ : Shape).Idx → EReal :=
  branch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))

/-- Row `p` of point `t`'s block is row `512 t + p` of the array. -/
theorem lt32_0 (t : Fin cfg0.N) : t.val < 32 := lt_of_lt_of_eq t.isLt N_0

abbrev rowAt0 (t : Fin cfg0.N) (p : Fin 512) : Fin 16384 :=
  ⟨t.val * 512 + p.val, by have h1 := lt32_0 t; have h2 := p.isLt; omega⟩

/-- WHAT POINT `t` WRITES BACK is block `t` of the result. -/
theorem flushed0 (c : Dev nD) (t : Fin cfg0.N) :
    (dat0 (V1 m ρ) c).flushed 8 t = ((cfg0.win 8).blk t).view.read (Elt Ideal) (res0 m c) := by
  show (cfg0.win 8).cut (grid0.coords t) ((dat0 (V1 m ρ) c).after 8 t) = _
  rw [after0_8]
  unfold out0_8
  rw [View.canon_unit_zero hz0]
  simp only [View.ld_unit_zero (S := S512x1024) hz0, View.ld_unit_zero (S := S1024x1024) hz0, View.ld_unit_zero (S := S1x1024) hz0]
  obtain ⟨i00, i01, i10, i11, i20, i21, i30, i31, i40, i41, i50, i51, i60, i61, i70, i71, i80, i81⟩ := idx0 t
  funext j
  obtain ⟨p, q, rfl⟩ : ∃ (p : Fin 512) (q : Fin 1024), j = ix2 p q := ⟨j 0, j 1, eq_ix2 j⟩
  show k0_pay1 (F := Ideal) (k0_pay2 (iblk0 (V1 m ρ) c 1 t) (iblk0 (V1 m ρ) c 2 t) (iblk0 (V1 m ρ) c 3 t) (iblk0 (V1 m ρ) c 4 t) (iblk0 (V1 m ρ) c 5 t) (iblk0 (V1 m ρ) c 0 t)) (iblk0 (V1 m ρ) c 6 t) (iblk0 (V1 m ρ) c 7 t) (ix2 p q)
      = res0 m c (((cfg0.win 8).blk t).view.emb (ix2 p q))
  refine (block_at (iblk0 (V1 m ρ) c 0 t) (iblk0 (V1 m ρ) c 1 t) (iblk0 (V1 m ρ) c 2 t) (iblk0 (V1 m ρ) c 4 t) (iblk0 (V1 m ρ) c 3 t) (iblk0 (V1 m ρ) c 5 t) (iblk0 (V1 m ρ) c 6 t) (iblk0 (V1 m ρ) c 7 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))
    (rowAt0 t) ?_ ?_ ?_ ?_ ?_ ?_ ?_ ?_ p q).trans (congrArg (res0 m c) ?_)
  · intro p k
    show V1 m ρ c main_arg0 (((cfg0.win 0).blk t).view.emb (ix2 p k)) = _
    refine (congrFun (V1_main_arg0 m ρ c) _).trans (congrArg (m ((c : Thread nD τ).loc main_arg0)) ?_)
    funext a; apply Fin.ext
    match a with
    | ⟨0, _⟩ => show win0_0.index t (0 : Fin 2) * 512 + 1 * p.val = t.val * 512 + p.val; rw [i00]; omega
    | ⟨1, _⟩ => show win0_0.index t (1 : Fin 2) * 1024 + 1 * k.val = k.val; rw [i01]; omega
  · intro p k
    show V1 m ρ c main_arg1 (((cfg0.win 1).blk t).view.emb (ix2 p k)) = _
    refine (congrFun (V1_main_arg1 m ρ c) _).trans (congrArg (m ((c : Thread nD τ).loc main_arg1)) ?_)
    funext a; apply Fin.ext
    match a with
    | ⟨0, _⟩ => show win0_1.index t (0 : Fin 2) * 512 + 1 * p.val = t.val * 512 + p.val; rw [i10]; omega
    | ⟨1, _⟩ => show win0_1.index t (1 : Fin 2) * 1024 + 1 * k.val = k.val; rw [i11]; omega
  · intro k j
    show V1 m ρ c main_v5 (((cfg0.win 2).blk t).view.emb (ix2 k j)) = _
    have e : ((cfg0.win 2).blk t).view.emb (ix2 k j) = ix2 k j := by
      funext a; apply Fin.ext
      match a with
      | ⟨0, _⟩ => show win0_2.index t (0 : Fin 2) * 1024 + 1 * k.val = k.val; rw [i20]; omega
      | ⟨1, _⟩ => show win0_2.index t (1 : Fin 2) * 1024 + 1 * j.val = j.val; rw [i21]; omega
    rw [e]; exact at_main_v5 m ρ c k j
  · intro j
    show V1 m ρ c main_v12 (((cfg0.win 3).blk t).view.emb (ix2 (0 : Fin 1) j)) = _
    have e : ((cfg0.win 3).blk t).view.emb (ix2 (0 : Fin 1) j) = ix2 (0 : Fin 1) j := by
      funext a; apply Fin.ext
      match a with
      | ⟨0, _⟩ => show win0_3.index t (0 : Fin 2) * 1 + 1 * 0 = 0; rw [i30]
      | ⟨1, _⟩ => show win0_3.index t (1 : Fin 2) * 1024 + 1 * j.val = j.val; rw [i31]; omega
    rw [e]; exact at_main_v12 m ρ c j
  · intro j c'
    show V1 m ρ c main_v7 (((cfg0.win 4).blk t).view.emb (ix2 j c')) = _
    have e : ((cfg0.win 4).blk t).view.emb (ix2 j c') = ix2 j c' := by
      funext a; apply Fin.ext
      match a with
      | ⟨0, _⟩ => show win0_4.index t (0 : Fin 2) * 1024 + 1 * j.val = j.val; rw [i40]; omega
      | ⟨1, _⟩ => show win0_4.index t (1 : Fin 2) * 1024 + 1 * c'.val = c'.val; rw [i41]; omega
    rw [e]; exact at_main_v7 m ρ c j c'
  · intro c'
    show V1 m ρ c main_v13 (((cfg0.win 5).blk t).view.emb (ix2 (0 : Fin 1) c')) = _
    have e : ((cfg0.win 5).blk t).view.emb (ix2 (0 : Fin 1) c') = ix2 (0 : Fin 1) c' := by
      funext a; apply Fin.ext
      match a with
      | ⟨0, _⟩ => show win0_5.index t (0 : Fin 2) * 1 + 1 * 0 = 0; rw [i50]
      | ⟨1, _⟩ => show win0_5.index t (1 : Fin 2) * 1024 + 1 * c'.val = c'.val; rw [i51]; omega
    rw [e]; exact at_main_v13 m ρ c c'
  · intro c'
    show V1 m ρ c main_v14 (((cfg0.win 6).blk t).view.emb (ix2 (0 : Fin 1) c')) = _
    have e : ((cfg0.win 6).blk t).view.emb (ix2 (0 : Fin 1) c') = ix2 (0 : Fin 1) c' := by
      funext a; apply Fin.ext
      match a with
      | ⟨0, _⟩ => show win0_6.index t (0 : Fin 2) * 1 + 1 * 0 = 0; rw [i60]
      | ⟨1, _⟩ => show win0_6.index t (1 : Fin 2) * 1024 + 1 * c'.val = c'.val; rw [i61]; omega
    rw [e]; exact at_main_v14 m ρ c c'
  · intro c'
    show V1 m ρ c main_v15 (((cfg0.win 7).blk t).view.emb (ix2 (0 : Fin 1) c')) = _
    have e : ((cfg0.win 7).blk t).view.emb (ix2 (0 : Fin 1) c') = ix2 (0 : Fin 1) c' := by
      funext a; apply Fin.ext
      match a with
      | ⟨0, _⟩ => show win0_7.index t (0 : Fin 2) * 1 + 1 * 0 = 0; rw [i70]
      | ⟨1, _⟩ => show win0_7.index t (1 : Fin 2) * 1024 + 1 * c'.val = c'.val; rw [i71]; omega
    rw [e]; exact at_main_v15 m ρ c c'
  · funext a; apply Fin.ext
    match a with
    | ⟨0, _⟩ => show t.val * 512 + p.val = win0_8.index t (0 : Fin 2) * 512 + 1 * p.val; rw [i80]; omega
    | ⟨1, _⟩ => show q.val = win0_8.index t (1 : Fin 2) * 1024 + 1 * q.val; rw [i81]; omega

/-- THE OUTPUT ARRAY after the run: the 32 row blocks cover it. -/
theorem final0 (c : Dev nD) : (dat0 (V1 m ρ) c).arrAt 8 cfg0.N = res0 m c :=
  (dat0 (V1 m ρ) c).arrAt_eq_of_cover 8 (res0 m c) (fun t _ => flushed0 m ρ c t) fun i => by
    have hi0 : (i 0).val < 16384 := (i 0).isLt
    have hi1 : (i 1).val < 1024 := (i 1).isLt
    obtain ⟨t, ht⟩ : ∃ t : Fin cfg0.N, t.val = (i 0).val / 512 :=
      ⟨⟨(i 0).val / 512, lt_of_lt_of_eq (by omega : (i 0).val / 512 < 32) N_0.symm⟩, rfl⟩
    refine ⟨t, flush0_8 t, ?_⟩
    obtain ⟨i00, i01, i10, i11, i20, i21, i30, i31, i40, i41, i50, i51, i60, i61, i70, i71, i80, i81⟩ := idx0 t
    show i ∈ ((View.whole main_v16).slice (win0_8.rect t)).set
    rw [View.set_slice_whole, Rect.mem_set_unit]
    intro a
    match a with
    | ⟨0, _⟩ =>
      show win0_8.index t (0 : Fin 2) * 512 ≤ (i 0).val ∧ (i 0).val < win0_8.index t (0 : Fin 2) * 512 + 512
      rw [i80, ht]; omega
    | ⟨1, _⟩ =>
      show win0_8.index t (1 : Fin 2) * 1024 ≤ (i 1).val ∧ (i 1).val < win0_8.index t (1 : Fin 2) * 1024 + 1024
      rw [i81]; omega

end Cert.KernelIdeal.Hand

end
-- ==== Proof.Blocks1.lean ====
/-
  The second call's output array after the run is `branch` of the arguments.

  Point `t` of the grid stages rows `512 t … 512 t + 511` of the two feature arrays and the whole of each weight array, and
  writes its block back to the same rows of the output. So what it writes back is block `t` of `branch` (the body's
  stored value, read row by row), the 32 blocks cover the array, and the array ends as `branch` of the launch contents.
-/
import proofs.«138096_j18356690223819_1_alg».proof.Proof.Gen.KernelIdeal.Frame
import proofs.«138096_j18356690223819_1_alg».proof.Proof.BlockRow
import proofs.«138096_j18356690223819_1_alg».proof.Proof.Entry
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

private theorem hz1 : (![0, 0] : Fin 2 → Nat) = fun _ => 0 := funext fun a => by fin_cases a <;> rfl

/-- The index maps over the grid: the feature windows and the output move one block of rows per point, the weight
    windows stay. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

/-- The second result as a function of the launch contents. -/
abbrev res1 (c : Dev nD) : (⟨2, ![16384, 1024]⟩ : Shape).Idx → EReal :=
  branch (m ((c : Thread nD τ).loc main_arg1)) (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))

/-- Row `p` of point `t`'s block is row `512 t + p` of the array. -/
theorem lt32_1 (t : Fin cfg1.N) : t.val < 32 := lt_of_lt_of_eq t.isLt N_1

abbrev rowAt1 (t : Fin cfg1.N) (p : Fin 512) : Fin 16384 :=
  ⟨t.val * 512 + p.val, by have h1 := lt32_1 t; have h2 := p.isLt; omega⟩

/-- WHAT POINT `t` WRITES BACK is block `t` of the result. -/
theorem flushed1 (c : Dev nD) (t : Fin cfg1.N) :
    (dat1 (V3 m ρ) c).flushed 8 t = ((cfg1.win 8).blk t).view.read (Elt Ideal) (res1 m c) := by
  show (cfg1.win 8).cut (grid1.coords t) ((dat1 (V3 m ρ) c).after 8 t) = _
  rw [after1_8]
  unfold out1_8
  rw [View.canon_unit_zero hz1]
  simp only [View.ld_unit_zero (S := S512x1024) hz1, View.ld_unit_zero (S := S1024x1024) hz1, View.ld_unit_zero (S := S1x1024) hz1]
  obtain ⟨i00, i01, i10, i11, i20, i21, i30, i31, i40, i41, i50, i51, i60, i61, i70, i71, i80, i81⟩ := idx1 t
  funext j
  obtain ⟨p, q, rfl⟩ : ∃ (p : Fin 512) (q : Fin 1024), j = ix2 p q := ⟨j 0, j 1, eq_ix2 j⟩
  show k0_pay1 (F := Ideal) (k0_pay2 (iblk1 (V3 m ρ) c 1 t) (iblk1 (V3 m ρ) c 2 t) (iblk1 (V3 m ρ) c 3 t) (iblk1 (V3 m ρ) c 4 t) (iblk1 (V3 m ρ) c 5 t) (iblk1 (V3 m ρ) c 0 t)) (iblk1 (V3 m ρ) c 6 t) (iblk1 (V3 m ρ) c 7 t) (ix2 p q)
      = res1 m c (((cfg1.win 8).blk t).view.emb (ix2 p q))
  refine (block_at (iblk1 (V3 m ρ) c 0 t) (iblk1 (V3 m ρ) c 1 t) (iblk1 (V3 m ρ) c 2 t) (iblk1 (V3 m ρ) c 4 t) (iblk1 (V3 m ρ) c 3 t) (iblk1 (V3 m ρ) c 5 t) (iblk1 (V3 m ρ) c 6 t) (iblk1 (V3 m ρ) c 7 t)
    (m ((c : Thread nD τ).loc main_arg1)) (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))
    (rowAt1 t) ?_ ?_ ?_ ?_ ?_ ?_ ?_ ?_ p q).trans (congrArg (res1 m c) ?_)
  · intro p k
    show V3 m ρ c main_arg1 (((cfg1.win 0).blk t).view.emb (ix2 p k)) = _
    refine (congrFun (V3_main_arg1 m ρ c) _).trans (congrArg (m ((c : Thread nD τ).loc main_arg1)) ?_)
    funext a; apply Fin.ext
    match a with
    | ⟨0, _⟩ => show win1_0.index t (0 : Fin 2) * 512 + 1 * p.val = t.val * 512 + p.val; rw [i00]; omega
    | ⟨1, _⟩ => show win1_0.index t (1 : Fin 2) * 1024 + 1 * k.val = k.val; rw [i01]; omega
  · intro p k
    show V3 m ρ c main_arg0 (((cfg1.win 1).blk t).view.emb (ix2 p k)) = _
    refine (congrFun (V3_main_arg0 m ρ c) _).trans (congrArg (m ((c : Thread nD τ).loc main_arg0)) ?_)
    funext a; apply Fin.ext
    match a with
    | ⟨0, _⟩ => show win1_1.index t (0 : Fin 2) * 512 + 1 * p.val = t.val * 512 + p.val; rw [i10]; omega
    | ⟨1, _⟩ => show win1_1.index t (1 : Fin 2) * 1024 + 1 * k.val = k.val; rw [i11]; omega
  · intro k j
    show V3 m ρ c main_v9 (((cfg1.win 2).blk t).view.emb (ix2 k j)) = _
    have e : ((cfg1.win 2).blk t).view.emb (ix2 k j) = ix2 k j := by
      funext a; apply Fin.ext
      match a with
      | ⟨0, _⟩ => show win1_2.index t (0 : Fin 2) * 1024 + 1 * k.val = k.val; rw [i20]; omega
      | ⟨1, _⟩ => show win1_2.index t (1 : Fin 2) * 1024 + 1 * j.val = j.val; rw [i21]; omega
    rw [e]; exact at_main_v9 m ρ c k j
  · intro j
    show V3 m ρ c main_v17 (((cfg1.win 3).blk t).view.emb (ix2 (0 : Fin 1) j)) = _
    have e : ((cfg1.win 3).blk t).view.emb (ix2 (0 : Fin 1) j) = ix2 (0 : Fin 1) j := by
      funext a; apply Fin.ext
      match a with
      | ⟨0, _⟩ => show win1_3.index t (0 : Fin 2) * 1 + 1 * 0 = 0; rw [i30]
      | ⟨1, _⟩ => show win1_3.index t (1 : Fin 2) * 1024 + 1 * j.val = j.val; rw [i31]; omega
    rw [e]; exact at_main_v17 m ρ c j
  · intro j c'
    show V3 m ρ c main_v11 (((cfg1.win 4).blk t).view.emb (ix2 j c')) = _
    have e : ((cfg1.win 4).blk t).view.emb (ix2 j c') = ix2 j c' := by
      funext a; apply Fin.ext
      match a with
      | ⟨0, _⟩ => show win1_4.index t (0 : Fin 2) * 1024 + 1 * j.val = j.val; rw [i40]; omega
      | ⟨1, _⟩ => show win1_4.index t (1 : Fin 2) * 1024 + 1 * c'.val = c'.val; rw [i41]; omega
    rw [e]; exact at_main_v11 m ρ c j c'
  · intro c'
    show V3 m ρ c main_v18 (((cfg1.win 5).blk t).view.emb (ix2 (0 : Fin 1) c')) = _
    have e : ((cfg1.win 5).blk t).view.emb (ix2 (0 : Fin 1) c') = ix2 (0 : Fin 1) c' := by
      funext a; apply Fin.ext
      match a with
      | ⟨0, _⟩ => show win1_5.index t (0 : Fin 2) * 1 + 1 * 0 = 0; rw [i50]
      | ⟨1, _⟩ => show win1_5.index t (1 : Fin 2) * 1024 + 1 * c'.val = c'.val; rw [i51]; omega
    rw [e]; exact at_main_v18 m ρ c c'
  · intro c'
    show V3 m ρ c main_v19 (((cfg1.win 6).blk t).view.emb (ix2 (0 : Fin 1) c')) = _
    have e : ((cfg1.win 6).blk t).view.emb (ix2 (0 : Fin 1) c') = ix2 (0 : Fin 1) c' := by
      funext a; apply Fin.ext
      match a with
      | ⟨0, _⟩ => show win1_6.index t (0 : Fin 2) * 1 + 1 * 0 = 0; rw [i60]
      | ⟨1, _⟩ => show win1_6.index t (1 : Fin 2) * 1024 + 1 * c'.val = c'.val; rw [i61]; omega
    rw [e]; exact at_main_v19 m ρ c c'
  · intro c'
    show V3 m ρ c main_v20 (((cfg1.win 7).blk t).view.emb (ix2 (0 : Fin 1) c')) = _
    have e : ((cfg1.win 7).blk t).view.emb (ix2 (0 : Fin 1) c') = ix2 (0 : Fin 1) c' := by
      funext a; apply Fin.ext
      match a with
      | ⟨0, _⟩ => show win1_7.index t (0 : Fin 2) * 1 + 1 * 0 = 0; rw [i70]
      | ⟨1, _⟩ => show win1_7.index t (1 : Fin 2) * 1024 + 1 * c'.val = c'.val; rw [i71]; omega
    rw [e]; exact at_main_v20 m ρ c c'
  · funext a; apply Fin.ext
    match a with
    | ⟨0, _⟩ => show t.val * 512 + p.val = win1_8.index t (0 : Fin 2) * 512 + 1 * p.val; rw [i80]; omega
    | ⟨1, _⟩ => show q.val = win1_8.index t (1 : Fin 2) * 1024 + 1 * q.val; rw [i81]; omega

/-- THE OUTPUT ARRAY after the run: the 32 row blocks cover it. -/
theorem final1 (c : Dev nD) : (dat1 (V3 m ρ) c).arrAt 8 cfg1.N = res1 m c :=
  (dat1 (V3 m ρ) c).arrAt_eq_of_cover 8 (res1 m c) (fun t _ => flushed1 m ρ c t) fun i => by
    have hi0 : (i 0).val < 16384 := (i 0).isLt
    have hi1 : (i 1).val < 1024 := (i 1).isLt
    obtain ⟨t, ht⟩ : ∃ t : Fin cfg1.N, t.val = (i 0).val / 512 :=
      ⟨⟨(i 0).val / 512, lt_of_lt_of_eq (by omega : (i 0).val / 512 < 32) N_1.symm⟩, rfl⟩
    refine ⟨t, flush1_8 t, ?_⟩
    obtain ⟨i00, i01, i10, i11, i20, i21, i30, i31, i40, i41, i50, i51, i60, i61, i70, i71, i80, i81⟩ := idx1 t
    show i ∈ ((View.whole main_v21).slice (win1_8.rect t)).set
    rw [View.set_slice_whole, Rect.mem_set_unit]
    intro a
    match a with
    | ⟨0, _⟩ =>
      show win1_8.index t (0 : Fin 2) * 512 ≤ (i 0).val ∧ (i 0).val < win1_8.index t (0 : Fin 2) * 512 + 512
      rw [i80, ht]; omega
    | ⟨1, _⟩ =>
      show win1_8.index t (1 : Fin 2) * 1024 ≤ (i 1).val ∧ (i 1).val < win1_8.index t (1 : Fin 2) * 1024 + 1024
      rw [i81]; omega

end Cert.KernelIdeal.Hand

end
-- ==== Proof.RefScore.lean ====
/-
  The reference's attention weights are all 1.

  The reference keeps the whole single-key attention: query and key projections, their scaled inner product per head (a
  score), and a softmax over the ONE key: the score minus the maximum of the scores (itself), exponentiated, divided by
  the sum of the one exponential. For real inputs the score is a real number (sums and products of reals, divided by 8), so
  the weight is exp 0 / exp 0 = 1 and the attended value is the projected value itself.
-/
import proofs.«138096_j18356690223819_1_alg».proof.Proof.Gen.ReferenceIdeal.Read
import proofs.«138096_j18356690223819_1_alg».proof.Proof.Rows
import Idealize.ShloMosaic.PureOps.Reduce

noncomputable section

namespace Cert.ReferenceIdeal.Hand

open Cert.ReferenceIdeal Cert.ReferenceIdeal.Gen Cert.ReferenceIdeal.Read Idealize.ShloMosaic Idealize.ShloMosaic.ValueIdx Cert.Rows

variable (x0 x1 : (⟨S16384x1024, .f32⟩ : BufTy).Contents (Elt Ideal)) (x2 : (⟨S3072x1024, .f32⟩ : BufTy).Contents (Elt Ideal)) (x3 : (⟨S3072, .f32⟩ : BufTy).Contents (Elt Ideal))

/-! ## The score is a real number -/

/-- The query projection of real inputs is real. -/
theorem real_q (h0 : ∀ i, IsReal (x0 i)) (h2 : ∀ i, IsReal (x2 i)) (h3 : ∀ i, IsReal (x3 i)) (i : S16384x1024.Idx) :
    IsReal (val_main_v10 (F := Ideal) x0 x2 x3 i) := by
  rw [val_main_v10_apply, val_main_v7_apply, val_main_v9_apply, val_main_v8_apply, val_main_v3_apply]
  refine IsReal.add (IsReal.sum _ _ fun k _ => IsReal.mul (h0 _) ?_) (h3 _)
  rw [val_main_v6_apply, val_main_v0_apply]
  exact h2 _

/-- The key projection of real inputs is real. -/
theorem real_k (h1 : ∀ i, IsReal (x1 i)) (h2 : ∀ i, IsReal (x2 i)) (h3 : ∀ i, IsReal (x3 i)) (i : S16384x1024.Idx) :
    IsReal (val_main_v16 (F := Ideal) x1 x2 x3 i) := by
  rw [val_main_v16_apply, val_main_v13_apply, val_main_v15_apply, val_main_v14_apply, val_main_v4_apply]
  refine IsReal.add (IsReal.sum _ _ fun k _ => IsReal.mul (h1 _) ?_) (h3 _)
  rw [val_main_v12_apply, val_main_v1_apply]
  exact h2 _

/-- The scaled score of real inputs is real. -/
theorem real_score (h0 : ∀ i, IsReal (x0 i)) (h1 : ∀ i, IsReal (x1 i)) (h2 : ∀ i, IsReal (x2 i)) (h3 : ∀ i, IsReal (x3 i))
    (i : S16384x16x1.Idx) : IsReal (val_main_v28 (F := Ideal) x0 x1 x2 x3 i) := by
  rw [val_main_v28_apply, val_main_v26_apply, val_main_v25_apply, val_main_v27_apply, val_main_cst_0_apply, val_main_cst_apply]
  refine IsReal.div_eight (IsReal.add ?_ (IsReal.sum _ _ fun k _ => ?_))
  · rw [Ideal.ofBits_def, Ideal.ofBits_zero_f32]; exact IsReal.zero
  · rw [val_main_v24_apply, val_main_v11_apply, val_main_v17_apply]
    exact IsReal.mul (real_q x0 x2 x3 h0 h2 h3 _) (real_k x1 x2 x3 h1 h2 h3 _)

/-! ## The softmax over the one key -/

private theorem univ_fin_one : (Finset.univ : Finset (Fin 1)) = {(0 : Fin 1)} := by
  ext x; constructor
  · intro _; exact Finset.mem_singleton.mpr (Subsingleton.elim _ _)
  · intro _; exact Finset.mem_univ _

/-- Dropping the last (unit) axis of the scores. -/
private theorem dropLast : S16384x16x1.Reduces [2] S16384x16 := by decide

private theorem fold_fin_one (f : Fin 1 → EReal) (b : EReal) : (Finset.univ : Finset (Fin 1)).fold max b f = max (f 0) b := by
  rw [univ_fin_one, Finset.fold_singleton]

/-- The one index of the last (unit) axis put back is the index itself. -/
private theorem lift_self (h : S16384x16x1.Reduces [2] S16384x16) (i : S16384x16x1.Idx) (k : Fin (S16384x16x1.size 2)) :
    h.lift (idx_main_v32 i) k = i := by
  funext a; apply Fin.ext
  match a with
  | ⟨0, _⟩ => rfl
  | ⟨1, _⟩ => rfl
  | ⟨2, _⟩ =>
    show k.val = (i 2).val
    have h1 : k.val < 1 := k.isLt
    have h2 : (i 2).val < 1 := (i 2).isLt
    omega

/-- The maximum over the one key, guarded by -∞ on both sides as the softmax prints it. -/
theorem max_at (i : S16384x16x1.Idx) :
    val_main_v32 (F := Ideal) x0 x1 x2 x3 i = max ⊥ (max (val_main_v28 (F := Ideal) x0 x1 x2 x3 i) ⊥) := by
  rw [val_main_v32_apply, val_main_v31_apply, val_main_v30_apply, val_main_cst_2_apply]
  unfold val_main_v29
  rw [Host.reduce_eq_fold_single FloatOps.maximumf _ _ reducesTo_S16384x16x1_S16384x16_d2 dropLast h_S_]
  show max (Ideal.ofBits .f32 0xFF800000#32) ((Finset.univ : Finset (Fin 1)).fold max (Ideal.ofBits .f32 0xFF800000#32)
    (fun k : Fin 1 => val_main_v28 (F := Ideal) x0 x1 x2 x3 (dropLast.lift (idx_main_v32 i) k))) = _
  rw [fold_fin_one, ofBits_neg_inf]
  exact congrArg (fun j => max (⊥ : EReal) (max (val_main_v28 (F := Ideal) x0 x1 x2 x3 j) ⊥)) (lift_self dropLast i (0 : Fin 1))

/-- The sum of the one exponential. -/
theorem sum_at (i : S16384x16x1.Idx) :
    val_main_v36 (F := Ideal) x0 x1 x2 x3 i = 0 + val_main_v34 (F := Ideal) x0 x1 x2 x3 i := by
  rw [val_main_v36_apply, val_main_v35_apply, val_main_cst_3_apply, Ideal.ofBits_def, Ideal.ofBits_zero_f32, Fin.sum_univ_one]
  refine congrArg (fun j => 0 + val_main_v34 (F := Ideal) x0 x1 x2 x3 j) ?_
  funext a; apply Fin.ext
  match a with
  | ⟨0, _⟩ => rfl
  | ⟨1, _⟩ => rfl
  | ⟨2, _⟩ =>
    show (0 : Nat) = (i 2).val
    have h2 : (i 2).val < 1 := (i 2).isLt
    omega

/-- THE WEIGHT: at real inputs the softmax over the one key is 1 at every head of every row. -/
theorem weight_one (h0 : ∀ i, IsReal (x0 i)) (h1 : ∀ i, IsReal (x1 i)) (h2 : ∀ i, IsReal (x2 i)) (h3 : ∀ i, IsReal (x3 i))
    (i : S16384x16x1.Idx) : val_main_v37 (F := Ideal) x0 x1 x2 x3 i = 1 := by
  rw [val_main_v37_apply, sum_at, val_main_v34_apply, val_main_v33_apply, max_at]
  exact softmax_one_key _ (real_score x0 x1 x2 x3 h0 h1 h2 h3 i)

end Cert.ReferenceIdeal.Hand

end
-- ==== Proof.RefRow.lean ====
/-
  The reference's first result is `branch` of its arguments.

  Read one operation at a time: the value projection of a row; the attended value, which is the projected value because
  every attention weight is 1 (the two reshapes between [16384, 1024] and [16384, 16, 64] undo each other); the output
  projection, bias and residual; the two row sums of the layer normalisation, each from a zero initial value.
-/
import proofs.«138096_j18356690223819_1_alg».proof.Proof.Gen.ReferenceIdeal.Read
import proofs.«138096_j18356690223819_1_alg».proof.Proof.Spec
import proofs.«138096_j18356690223819_1_alg».proof.Proof.RefScore

noncomputable section

namespace Cert.ReferenceIdeal.Hand

open Cert.ReferenceIdeal Cert.ReferenceIdeal.Gen Cert.ReferenceIdeal.Read Idealize.ShloMosaic Idealize.ShloMosaic.ValueIdx Cert.Rows Cert.Spec

variable (x0 x1 : (⟨S16384x1024, .f32⟩ : BufTy).Contents (Elt Ideal)) (x2 : (⟨S3072x1024, .f32⟩ : BufTy).Contents (Elt Ideal)) (x3 : (⟨S3072, .f32⟩ : BufTy).Contents (Elt Ideal)) (x4 : (⟨S1024x1024, .f32⟩ : BufTy).Contents (Elt Ideal)) (x5 x10 x11 : (⟨S1024, .f32⟩ : BufTy).Contents (Elt Ideal))

/-- The value projection at row `r`, column `j`. -/
theorem v22_at (r : Fin 16384) (j : Fin 1024) :
    val_main_v22 (F := Ideal) x1 x2 x3 (ix2 r j)
      = proj (fun k => x1 (ix2 r k)) (fun j k => x2 (ixW j k)) (fun j => x3 (ixb j)) j := by
  rw [val_main_v22_apply, val_main_v19_apply, val_main_v21_apply, val_main_v20_apply, val_main_v5_apply]
  unfold proj
  refine congrArg₂ (· + ·) (Finset.sum_congr rfl fun k _ => ?_) (congrArg x3 (funext fun a => Fin.ext (by match a with | ⟨0, _⟩ => rfl)))
  rw [val_main_v18_apply, val_main_v2_apply]
  exact congrArg₂ (· * ·) (congrArg x1 (funext fun a => Fin.ext (by match a with | ⟨0, _⟩ => rfl | ⟨1, _⟩ => rfl))) (congrArg x2 (funext fun a => Fin.ext (by match a with | ⟨0, _⟩ => rfl | ⟨1, _⟩ => rfl)))

/-- The attended value is the projected value: the weight is 1, and the index goes through the heads and back. -/
theorem v40_at (h0 : ∀ i, IsReal (x0 i)) (h1 : ∀ i, IsReal (x1 i)) (h2 : ∀ i, IsReal (x2 i)) (h3 : ∀ i, IsReal (x3 i))
    (r : Fin 16384) (j : Fin 1024) :
    val_main_v40 (F := Ideal) x0 x1 x2 x3 (ix2 r j) = val_main_v22 (F := Ideal) x1 x2 x3 (ix2 r j) := by
  rw [val_main_v40_apply, val_main_v39_apply, val_main_v38_apply, weight_one x0 x1 x2 x3 h0 h1 h2 h3, val_main_v23_apply]
  show (1 : EReal) * _ = _
  rw [one_mul]
  refine congrArg (val_main_v22 (F := Ideal) x1 x2 x3) ?_
  have hr := r.isLt
  have hj := j.isLt
  funext a; apply Fin.ext
  match a with
  | ⟨0, _⟩ =>
    show ((((r.val * 1024 + j.val) / 1024) * 16 + (r.val * 1024 + j.val) / 64 % 16) * 64 + (r.val * 1024 + j.val) % 64) / 1024 = r.val
    omega
  | ⟨1, _⟩ =>
    show ((((r.val * 1024 + j.val) / 1024) * 16 + (r.val * 1024 + j.val) / 64 % 16) * 64 + (r.val * 1024 + j.val) % 64) % 1024 = j.val
    omega

/-- The output projection, its bias and the residual, at row `r`, column `c`. -/
theorem v46_at (h0 : ∀ i, IsReal (x0 i)) (h1 : ∀ i, IsReal (x1 i)) (h2 : ∀ i, IsReal (x2 i)) (h3 : ∀ i, IsReal (x3 i))
    (r : Fin 16384) (c : Fin 1024) :
    val_main_v46 (F := Ideal) x0 x1 x2 x3 x4 x5 (ix2 r c)
      = resid (fun k => x0 (ix2 r k)) (fun k => x1 (ix2 r k)) (fun j k => x2 (ixW j k)) (fun j => x3 (ixb j))
          (fun c j => x4 (ix2 c j)) (fun c => x5 (ix1 c)) c := by
  rw [val_main_v46_apply, val_main_v45_apply, val_main_v42_apply, val_main_v44_apply, val_main_v43_apply]
  unfold resid
  refine congrArg₂ (· + ·) (congrArg₂ (· + ·) (Finset.sum_congr rfl fun k _ => ?_) (congrArg x5 (funext fun a => Fin.ext (by match a with | ⟨0, _⟩ => rfl)))) rfl
  rw [val_main_v41_apply]
  have e1 : lidx_main_v42 (ix2 r c) k = ix2 r k := funext fun a => Fin.ext (by match a with | ⟨0, _⟩ => rfl | ⟨1, _⟩ => rfl)
  rw [e1, v40_at x0 x1 x2 x3 h0 h1 h2 h3, v22_at]
  exact congrArg (_ * ·) (congrArg x4 (funext fun a => Fin.ext (by match a with | ⟨0, _⟩ => rfl | ⟨1, _⟩ => rfl)))

/-- The residual row the normalisation acts on. -/
abbrev yrow (r : Fin 16384) : Fin 1024 → EReal := fun c => val_main_v46 (F := Ideal) x0 x1 x2 x3 x4 x5 (ix2 r c)

/-- The mean of a row, as the one-lane column holds it. -/
theorem v50_at (r : Fin 16384) (u : Fin 1) :
    val_main_v50 (F := Ideal) x0 x1 x2 x3 x4 x5 (ix2 r u) = mean (yrow x0 x1 x2 x3 x4 x5 r) := by
  rw [val_main_v50_apply, val_main_v48_apply, val_main_v47_apply, val_main_v49_apply, val_main_cst_5_apply, val_main_cst_4_apply,
    Ideal.ofBits_def, Ideal.ofBits_def, Ideal.ofBits_zero_f32, zero_add]
  unfold mean
  show Ideal.div (∑ k : Fin 1024, _) _ = _
  exact congrArg (fun s : EReal => Ideal.div s (Ideal.ofBits .f32 0x44800000#32)) (Finset.sum_congr rfl fun k _ => congrArg (val_main_v46 (F := Ideal) x0 x1 x2 x3 x4 x5) (funext fun a => Fin.ext (by match a with | ⟨0, _⟩ => rfl | ⟨1, _⟩ => rfl)))

/-- A centred entry. -/
theorem v52_at (r : Fin 16384) (c : Fin 1024) :
    val_main_v52 (F := Ideal) x0 x1 x2 x3 x4 x5 (ix2 r c) = yrow x0 x1 x2 x3 x4 x5 r c - mean (yrow x0 x1 x2 x3 x4 x5 r) := by
  rw [val_main_v52_apply, val_main_v51_apply]
  have e : idx_main_v51 (ix2 r c) = ix2 r (0 : Fin 1) := funext fun a => Fin.ext (by match a with | ⟨0, _⟩ => rfl | ⟨1, _⟩ => rfl)
  rw [e, v50_at]
  rfl

/-- The variance of a row, as the one-lane column holds it. -/
theorem v57_at (r : Fin 16384) (u : Fin 1) :
    val_main_v57 (F := Ideal) x0 x1 x2 x3 x4 x5 (ix2 r u)
      = Ideal.div (∑ c' : Fin 1024, (yrow x0 x1 x2 x3 x4 x5 r c' - mean (yrow x0 x1 x2 x3 x4 x5 r)) * (yrow x0 x1 x2 x3 x4 x5 r c' - mean (yrow x0 x1 x2 x3 x4 x5 r)))
          (Ideal.ofBits .f32 0x44800000#32) := by
  rw [val_main_v57_apply, val_main_v55_apply, val_main_v54_apply, val_main_v56_apply, val_main_cst_7_apply, val_main_cst_6_apply,
    Ideal.ofBits_def, Ideal.ofBits_def, Ideal.ofBits_zero_f32, zero_add]
  show Ideal.div (∑ k : Fin 1024, _) _ = _
  refine congrArg (fun s : EReal => Ideal.div s (Ideal.ofBits .f32 0x44800000#32)) (Finset.sum_congr rfl fun k _ => ?_)
  have e : idx_main_v54 (idx_main_v55 (ix2 r u)) k = ix2 r k := funext fun a => Fin.ext (by match a with | ⟨0, _⟩ => rfl | ⟨1, _⟩ => rfl)
  rw [e, val_main_v53_apply, v52_at]
  rfl

/-- THE FIRST RESULT of the reference, at real inputs, is `branch` of its arguments. -/
theorem v70_eq (h0 : ∀ i, IsReal (x0 i)) (h1 : ∀ i, IsReal (x1 i)) (h2 : ∀ i, IsReal (x2 i)) (h3 : ∀ i, IsReal (x3 i)) :
    val_main_v70 (F := Ideal) x0 x1 x2 x3 x4 x5 x10 x11 = branch x0 x1 x2 x3 x4 x5 x10 x11 := by
  funext i
  obtain ⟨r, c, rfl⟩ : ∃ (r : Fin 16384) (c : Fin 1024), i = ix2 r c := ⟨i 0, i 1, eq_ix2 i⟩
  rw [val_main_v70_apply, val_main_v67_apply, val_main_v64_apply, val_main_v59_apply, val_main_v58_apply, val_main_v63_apply,
    val_main_v62_apply, val_main_v61_apply, val_main_v60_apply, val_main_cst_8_apply, val_main_v66_apply, val_main_v65_apply,
    val_main_v69_apply, val_main_v68_apply]
  have e58 : idx_main_v58 (ix2 r c) = ix2 r (0 : Fin 1) := funext fun a => Fin.ext (by match a with | ⟨0, _⟩ => rfl | ⟨1, _⟩ => rfl)
  have e63 : idx_main_v63 (ix2 r c) = ix2 r (0 : Fin 1) := funext fun a => Fin.ext (by match a with | ⟨0, _⟩ => rfl | ⟨1, _⟩ => rfl)
  have e65 : idx_main_v65 (idx_main_v66 (ix2 r c)) = ix1 c := funext fun a => Fin.ext (by match a with | ⟨0, _⟩ => rfl)
  have e68 : idx_main_v68 (idx_main_v69 (ix2 r c)) = ix1 c := funext fun a => Fin.ext (by match a with | ⟨0, _⟩ => rfl)
  rw [e58, e63, e65, e68, v50_at, v57_at]
  have hy : yrow x0 x1 x2 x3 x4 x5 r = resid (fun k => x0 (ix2 r k)) (fun k => x1 (ix2 r k)) (fun j k => x2 (ixW j k)) (fun j => x3 (ixb j))
      (fun c j => x4 (ix2 c j)) (fun c => x5 (ix1 c)) := funext fun c' => v46_at x0 x1 x2 x3 x4 x5 h0 h1 h2 h3 r c'
  show (yrow x0 x1 x2 x3 x4 x5 r c - mean (yrow x0 x1 x2 x3 x4 x5 r)) * Ideal.rsqrt (_ + Ideal.ofBits .f32 0x3727C5AC#32) * x10 (ix1 c) + x11 (ix1 c) = _
  rw [hy]
  rfl

end Cert.ReferenceIdeal.Hand

end
-- ==== Proof.RefSecond.lean ====
/-
  The reference's second result is its first with the two feature arrays exchanged and the second set of weights: the
  program applies the same operations in the same order to the other arguments.
-/
import proofs.«138096_j18356690223819_1_alg».proof.Proof.Gen.ReferenceIdeal.Read

noncomputable section

namespace Cert.ReferenceIdeal.Hand

open Cert.ReferenceIdeal Cert.ReferenceIdeal.Gen Cert.ReferenceIdeal.Read Idealize.ShloMosaic

set_option maxRecDepth 65536 in
theorem v141_eq_v70 (x0 x1 : (⟨S16384x1024, .f32⟩ : BufTy).Contents (Elt Ideal)) (x6 : (⟨S3072x1024, .f32⟩ : BufTy).Contents (Elt Ideal)) (x7 : (⟨S3072, .f32⟩ : BufTy).Contents (Elt Ideal)) (x8 : (⟨S1024x1024, .f32⟩ : BufTy).Contents (Elt Ideal)) (x9 x12 x13 : (⟨S1024, .f32⟩ : BufTy).Contents (Elt Ideal)) :
    val_main_v141 (F := Ideal) x0 x1 x6 x7 x8 x9 x12 x13 = val_main_v70 (F := Ideal) x1 x0 x6 x7 x8 x9 x12 x13 := rfl

end Cert.ReferenceIdeal.Hand

end
-- ==== Proof.Finite.lean ====
/-
  The precondition says every entry of the inputs the scores are made of is a real number.

  `finite_inputs` is the conjunction, over the fourteen arguments, of "every entry's absolute value is below +∞". An
  extended real whose absolute value `max x (-x)` is below `⊤` is neither infinity, so it is a real number. The scores of
  the two attention calls are made of the two feature arrays and the two packed projection weights and biases: those six
  conjuncts are read off here.
-/
import proofs.«138096_j18356690223819_1_alg».proof.Pre_finite_inputs
import proofs.«138096_j18356690223819_1_alg».proof.Proof.Rows
import Idealize.ShloMosaic.Lib.ReduceAll
import Idealize.ShloMosaic.Lib.ValueIdx

noncomputable section

namespace Cert.Pre_finite_inputs.Hand

open Cert.Pre_finite_inputs Cert.Pre_finite_inputs.Facts Idealize.ShloMosaic Idealize.ShloMosaic.ValueIdx Cert.Rows

instance : Subsingleton S_.Idx := ⟨fun a b => funext fun d => d.elim0⟩

/-- The word of +∞ is the top element. -/
theorem ofBits_inf : Ideal.ofBits .f32 0x7F800000#32 = ⊤ := by simp [Ideal.ofBits, Ideal.ieee]

/-- An extended real whose absolute value compares below +∞ is a real number. -/
theorem real_of_lt (x : EReal) (h : Ideal.cmp .olt (max x (-x)) (Ideal.ofBits .f32 0x7F800000#32) = 1#1) : IsReal x := by
  rw [ofBits_inf] at h
  have hlt : max x (-x) < ⊤ := by
    by_contra hc
    simp [Ideal.cmp, hc] at h
  induction x using EReal.rec with
  | bot => simp at hlt
  | top => simp at hlt
  | coe r => exact ⟨r, rfl⟩

/-- One conjunct of the precondition, read back: `jnp.all(|x| < ∞)` makes every entry of `x` real. -/
theorem real_of_all [Facts] {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant S_ .f32 0x7F800000#32))) (constantI S_ 1 1#1) hr h_S_ ix0 = 1#1)
    (i : s.Idx) : IsReal (x i) :=
  real_of_lt (x i) (Host.reduce_andi_all _ _ hr h_S_ ix0 h i)

/-- The six arrays the attention scores are made of hold real numbers. -/
theorem reals [Facts] (a0 a1 : FVec Ideal S16384x1024 .f32) (a2 : FVec Ideal S3072x1024 .f32) (a3 : FVec Ideal S3072 .f32)
    (a4 : FVec Ideal S1024x1024 .f32) (a5 : FVec Ideal S1024 .f32) (a6 : FVec Ideal S3072x1024 .f32) (a7 : FVec Ideal S3072 .f32)
    (a8 : FVec Ideal S1024x1024 .f32) (a9 a10 a11 a12 a13 : FVec Ideal S1024 .f32)
    (h : fn (F := Ideal) a0 a1 a2 a3 a4 a5 a6 a7 a8 a9 a10 a11 a12 a13 = fun _ => 1#1) :
    (∀ i, IsReal (a0 i)) ∧ (∀ i, IsReal (a1 i)) ∧ (∀ i, IsReal (a2 i)) ∧ (∀ i, IsReal (a3 i)) ∧ (∀ i, IsReal (a6 i)) ∧ (∀ i, IsReal (a7 i)) := by
  have h0 := congrFun h ix0
  dsimp only [fn, fn_part1, fn_part2, fn_part3, fn_part4] at h0
  simp only [andi, IntOp.andi_eq_one] at h0
  obtain ⟨⟨⟨⟨⟨⟨⟨⟨⟨⟨⟨⟨⟨c0, c1⟩, c2⟩, c3⟩, c4⟩, c5⟩, c6⟩, c7⟩, c8⟩, c9⟩, c10⟩, c11⟩, c12⟩, c13⟩ := h0
  exact ⟨real_of_all a0 _ _ c0, real_of_all a1 _ _ c1, real_of_all a2 _ _ c2, real_of_all a3 _ _ c3, real_of_all a6 _ _ c6, real_of_all a7 _ _ c7⟩

end Cert.Pre_finite_inputs.Hand

end
-- ==== Proof.Claims.lean ====
/-
  The five claims.

  The frames of the two kernel programs are the generated frame certificates; the reference's frame is its run with the
  results dropped. No operation was rewritten by the idealization, so there is nothing to preserve. For the value claim:
  the kernel's two result arrays end as `branch` of (image, text, first weights) and of (text, image, second weights) —
  block by block, whatever the inputs —, and the reference's two results are the same two functions of arguments that
  agree, once the precondition has made its attention scores real numbers, so that every softmax weight over the single
  key is 1.
-/
import proofs.«138096_j18356690223819_1_alg».proof.Defs
import proofs.«138096_j18356690223819_1_alg».proof.Proof.Gen.Kernel.Frame
import proofs.«138096_j18356690223819_1_alg».proof.Proof.Gen.KernelIdeal.Frame
import proofs.«138096_j18356690223819_1_alg».proof.Proof.Gen.ReferenceIdeal.Run
import proofs.«138096_j18356690223819_1_alg».proof.Proof.Gen.ReferenceIdeal.Read
import proofs.«138096_j18356690223819_1_alg».proof.Proof.Gen.Pre_finite_inputs
import proofs.«138096_j18356690223819_1_alg».proof.Proof.KRun
import proofs.«138096_j18356690223819_1_alg».proof.Proof.Blocks0
import proofs.«138096_j18356690223819_1_alg».proof.Proof.Blocks1
import proofs.«138096_j18356690223819_1_alg».proof.Proof.RefRow
import proofs.«138096_j18356690223819_1_alg».proof.Proof.RefSecond
import proofs.«138096_j18356690223819_1_alg».proof.Proof.Finite

noncomputable section

namespace Cert.Proof.Hand

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.res0 m c, fun c => Cert.KernelIdeal.Hand.res1 m c, ?_, ?_⟩
  · refine (θ_run Cert.KernelIdeal.defs _ _).mono (fun r h c => ?_) (Cert.KernelIdeal.Hand.run_fold (F := Ideal) m ρ)
    obtain ⟨h16, h21, hargs⟩ := h c
    exact ⟨h16.trans ((Cert.KernelIdeal.Hand.fold_v16 m ρ c).trans (Cert.KernelIdeal.Hand.final0 m ρ c)),
      h21.trans ((Cert.KernelIdeal.Hand.fold_v21 m ρ c).trans (Cert.KernelIdeal.Hand.final1 m ρ c)), hargs⟩
  · refine (θ_run Cert.ReferenceIdeal.defs _ _).mono (fun r h c => ?_) (Cert.ReferenceIdeal.Value.run (F := Ideal) m' ρ')
    obtain ⟨h70, h141, hargs⟩ := h c
    obtain ⟨a0, a1, a2, a3, a4, a5, a6, a7, a8, a9, a10, a11, a12, a13⟩ := hagree c
    obtain ⟨r0, r1, r2, r3, r6, r7⟩ := Cert.Pre_finite_inputs.Hand.reals _ _ _ _ _ _ _ _ _ _ _ _ _ _ (hpre c)
    refine ⟨h70.trans ?_, h141.trans ?_, hargs⟩
    · rw [Cert.ReferenceIdeal.Read.val_main_v70_eq, a0, a1, a2, a3, a4, a5, a10, a11]
      exact Cert.ReferenceIdeal.Hand.v70_eq _ _ _ _ _ _ _ _ r0 r1 r2 r3
    · rw [Cert.ReferenceIdeal.Read.val_main_v141_eq, Cert.ReferenceIdeal.Hand.v141_eq_v70, a0, a1, a6, a7, a8, a9, a12, a13]
      exact Cert.ReferenceIdeal.Hand.v70_eq _ _ _ _ _ _ _ _ r1 r0 r6 r7

end Cert.Proof.Hand

end
-- ==== Proof.lean ====
/-
  The certificate of a two-branch cross-attention block against its reference.

  Each branch attends over a single key, so its softmax weight is 1 and the attended value is the value projection; the
  kernel computes `LayerNorm((x2 · Wvᵀ + bv) · Woᵀ + bo + x1)` directly, 512 rows per grid point, once per branch, and
  the reference computes the whole attention. On the extended reals the two agree whenever the inputs are real numbers:
  Proof/Rows.lean states the row function and the one-key softmax, Proof/Spec.lean the whole-array function `branch`,
  Proof/Payload.lean, BlockRow.lean, Entry.lean, Blocks0.lean, Blocks1.lean and KRun.lean read the kernel's two result
  arrays as `branch`, Proof/RefScore.lean, RefRow.lean and RefSecond.lean read the reference's, Proof/Finite.lean reads
  the precondition, and Proof/Claims.lean assembles the five claims.
-/
import proofs.«138096_j18356690223819_1_alg».proof.Defs
import proofs.«138096_j18356690223819_1_alg».proof.Proof.Gen.Kernel
import proofs.«138096_j18356690223819_1_alg».proof.Proof.Gen.KernelIdeal
import proofs.«138096_j18356690223819_1_alg».proof.Proof.Gen.ReferenceIdeal
import proofs.«138096_j18356690223819_1_alg».proof.Proof.Gen.Pre_finite_inputs
import proofs.«138096_j18356690223819_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Hand.frame_k, Cert.Proof.Hand.frame_ki, Cert.Proof.Hand.frame_ri, Cert.Proof.Hand.preserves, Cert.Proof.Hand.algebraic⟩

end Cert.Proof

end
